-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x16 : Shape := ⟨2, ![1, 16]⟩
abbrev S1x7 : Shape := ⟨2, ![1, 7]⟩
abbrev S100000x16 : Shape := ⟨2, ![100000, 16]⟩
abbrev S10000x512 : Shape := ⟨2, ![10000, 512]⟩
abbrev S10000x1 : Shape := ⟨2, ![10000, 1]⟩
abbrev S10000x16 : Shape := ⟨2, ![10000, 16]⟩
abbrev S1700000x16 : Shape := ⟨2, ![1700000, 16]⟩
abbrev S100000x7 : Shape := ⟨2, ![100000, 7]⟩
abbrev S10000x7 : Shape := ⟨2, ![10000, 7]⟩
abbrev S1700000x7 : Shape := ⟨2, ![1700000, 7]⟩

abbrev nBuf : Space → Nat
  | .hbm => 59
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x16, .f32⟩
  | .hbm, ⟨29, _⟩ => ⟨S1x7, .f32⟩
  | .hbm, ⟨30, _⟩ => ⟨S100000x16, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x16, .f32⟩
  | .hbm, ⟨40, _⟩ => ⟨S_, .f32⟩
  | .hbm, ⟨41, _⟩ => ⟨S100000x16, .f32⟩
  | .hbm, ⟨42, _⟩ => ⟨S1700000x1, .i32⟩
  | .hbm, ⟨43, _⟩ => ⟨S100000x16, .f32⟩
  | .hbm, ⟨44, _⟩ => ⟨S100000x7, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x7, .f32⟩
  | .hbm, ⟨54, _⟩ => ⟨S_, .f32⟩
  | .hbm, ⟨55, _⟩ => ⟨S100000x7, .f32⟩
  | .hbm, ⟨56, _⟩ => ⟨S1700000x1, .i32⟩
  | .hbm, ⟨57, _⟩ => ⟨S100000x7, .f32⟩
  | .hbm, ⟨58, _⟩ => ⟨S100000x7, .f32⟩
  | .local _ .vmem, ⟨0, _⟩ => ⟨S10000x512, .f32⟩
  | .local _ .vmem, ⟨1, _⟩ => ⟨S10000x512, .f32⟩
  | .local _ .vmem, ⟨2, _⟩ => ⟨S512x16, .f32⟩
  | .local _ .vmem, ⟨3, _⟩ => ⟨S10000x1, .f32⟩
  | .local _ .vmem, ⟨4, _⟩ => ⟨S10000x1, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S16x7, .f32⟩
  | .local _ .vmem, ⟨13, _⟩ => ⟨S10000x7, .f32⟩
  | .local _ .vmem, ⟨14, _⟩ => ⟨S10000x7, .f32⟩
  | .local _ .vmem, ⟨15, _⟩ => ⟨S10000x7, .f32⟩
  | .local _ .vmem, ⟨16, _⟩ => ⟨S10000x7, .f32⟩
  | .local _ .vmem, ⟨17, _⟩ => ⟨S10000x1, .f32⟩
  | .local _ .vmem, ⟨18, _⟩ => ⟨S10000x1, .f32⟩
  | .local _ .vmem, ⟨19, _⟩ => ⟨S1x7, .f32⟩
  | .local _ .vmem, ⟨20, _⟩ => ⟨S10000x7, .f32⟩
  | .local _ .vmem, ⟨21, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S16_S1x16_1 : S16.BroadcastsInDim S1x16 (![1] : Fin 1 → Fin S1x16.rank)
  bcast_S7_S1x7_1 : S7.BroadcastsInDim S1x7 (![1] : Fin 1 → Fin S1x7.rank)
  inb_S10000x512_S10000x512_0_0 : ∀ a, (![0, 0] : Fin 2 → Nat) a + S10000x512.size a ≤ S10000x512.size a
  h_S10000x512 : 0 < S10000x512.numel
  inb_S512x16_S512x16_0_0 : ∀ a, (![0, 0] : Fin 2 → Nat) a + S512x16.size a ≤ S512x16.size a
  h_S512x16 : 0 < S512x16.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  broadcasts_S10000x1_S10000x7 : S10000x1.Broadcasts S10000x7
  inb_S10000x7_S10000x7_0_0 : ∀ a, (![0, 0] : Fin 2 → Nat) a + S10000x7.size a ≤ S10000x7.size a
  h_S10000x7 : 0 < S10000x7.numel
  bcast_S_S100000x7 : S_.BroadcastsInDim S100000x7 (![] : Fin 0 → Fin S100000x7.rank)
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  scatter_S100000_S1700000x1_S1700000_n_0_0_1_wf : ScatterDims.WF S100000 S1700000x1 S1700000 [] [0] [0] 1
  dot_S10000x512_S512x16_S10000x16_1_0_0_1_n_n_wf : DotDims.WF S10000x512 S512x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x7_S10000x7_1_0_0_1_n_n_wf : DotDims.WF S10000x16 S16x7 S10000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S100000x512.size a
  hwx0_0 : ∀ i : grid0.Coords, EltTy.bits .f32 = 32 ∨ (Rect.block (s := S100000x512) S10000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x7.size a ≤ S16x7.size a
  hwx1_3 : ∀ i : grid1.Coords, EltTy.bits .f32 = 32 ∨ (Rect.block (s := S16x7) S16x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x7.size a ≤ S100000x7.size a
  hwx1_4 : ∀ i : grid1.Coords, EltTy.bits .f32 = 32 ∨ (Rect.block (s := S100000x7) S10000x7.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x7.size a ≤ S100000x7.size a
  hwx2_0 : ∀ i : grid2.Coords, EltTy.bits .f32 = 32 ∨ (Rect.block (s := S100000x7) S10000x7.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x7.size a ≤ S100000x7.size a
  hwx2_3 : ∀ i : grid2.Coords, EltTy.bits .f32 = 32 ∨ (Rect.block (s := S100000x7) S10000x7.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x512_S512x16_S10000x16_1_0_0_1_n_n : DotDims S10000x512 S512x16 S10000x16 where
  lhsContracting := [1]
  rhsContracting := [0]
  lhsNonContracting := [0]
  rhsNonContracting := [1]
  lhsBatch := []
  rhsBatch := []
  wf := dot_S10000x512_S512x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

abbrev win0_0 : Pipeline.Window sig grid0 :=
  Pipeline.Window.ofSpec (Memref.whole main_arg0) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S10000x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S10000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S10000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x1600000 : Shape := ⟨2, ![1, 1600000]⟩
abbrev S1600000 : Shape := ⟨1, ![1600000]⟩
abbrev S100000x16 : Shape := ⟨2, ![100000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x7 : Shape := ⟨2, ![100000, 7]⟩
abbrev S1700000x7 : Shape := ⟨2, ![1700000, 7]⟩
abbrev S1x7 : Shape := ⟨2, ![1, 7]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x16, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x7, .f32⟩
  | .hbm, ⟨115, _⟩ => ⟨S1700000x1, .f32⟩
  | .hbm, ⟨116, _⟩ => ⟨S1700000x7, .f32⟩
  | .hbm, ⟨117, _⟩ => ⟨S1700000x7, .f32⟩
  | .hbm, ⟨118, _⟩ => ⟨S_, .f32⟩
  | .hbm, ⟨119, _⟩ => ⟨S100000x7, .f32⟩
  | .hbm, ⟨120, _⟩ => ⟨S1700000x1, .i32⟩
  | .hbm, ⟨121, _⟩ => ⟨S100000x7, .f32⟩
  | .hbm, ⟨122, _⟩ => ⟨S1x7, .f32⟩
  | .hbm, ⟨123, _⟩ => ⟨S100000x7, .f32⟩
  | .hbm, ⟨124, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x7_S100000x7_1_0_0_1_n_n_wf : DotDims.WF S100000x16 S16x7 S100000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibGcn.lean ====
/-
  Two graph-convolution layers over a fixed edge list, as functions of the arrays, index by index.

  A layer transforms every node's row by a matrix, sends the transformed row of the source of every edge to the edge's
  destination, and adds up what arrives, every message weighted by  d(source) · d(destination)  where  d  is a
  per-node factor (the inverse square root of the destination count).  The weight can be applied in two ways:  edge by
  edge, as the product of the two factors looked up for the edge;  or node by node, scaling the transformed rows by
  d  before they are sent and the accumulated sums by  d  after.  The two agree on the extended reals as soon as  d  is a
  nonnegative real:  such a factor distributes over a finite sum, whatever the summands.
-/
import Idealize.ShloMosaic.PureOps.Ideal
import Idealize.ShloMosaic.Lib.ValueIdx
import proofs.«148080_j80625126080586_2_alg».proof.Proof.LibRowDot
import proofs.«148080_j80625126080586_2_alg».proof.Proof.LibNormSum
import proofs.«148080_j80625126080586_2_alg».proof.Proof.LibRows

noncomputable section

open scoped BigOperators

namespace Cert.Gcn

open Idealize.ShloMosaic Idealize.ShloMosaic.ValueIdx Cert.RowDot

/-- The number the all-zero f32 word denotes. -/
abbrev z32 : EReal := Ideal.ofBits .f32 0x00000000#32

/-- The row a column's signed start word names, clamped into [0, N − 1]. -/
def clampRow {M : Nat} (N : Nat) (hN : 0 < N) (col : IVec (⟨2, ![M, 1]⟩ : Shape) 32) (e : Fin M) : Fin N :=
  ⟨min (col (ix2 e (0 : Fin 1))).toInt.toNat (N - 1), by omega⟩

/-- A column's start word, read signed. -/
def startWord {M : Nat} (col : IVec (⟨2, ![M, 1]⟩ : Shape) 32) (e : Fin M) : ℤ := (col (ix2 e (0 : Fin 1))).toInt

/-! ## Node by node -/

/-- Transform the rows of x by w and scale row n by d(n, 0). -/
def scaledDot {N K C : Nat} (x : (⟨2, ![N, K]⟩ : Shape).Idx → EReal) (w : (⟨2, ![K, C]⟩ : Shape).Idx → EReal)
    (d : (⟨2, ![N, 1]⟩ : Shape).Idx → EReal) : (⟨2, ![N, C]⟩ : Shape).Idx → EReal :=
  fun i => rowDot (rowOf x (i 0)) w (i 1) * d (ix2 (i 0) (0 : Fin 1))

/-- Scale row n of the accumulated sums by d(n, 0), add the bias, rectify. -/
def rectified {N C : Nat} (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => max (a i * d (ix2 (i 0) (0 : Fin 1)) + b (ix2 (0 : Fin 1) (i 1))) z32

/-- Scale row n of the accumulated sums by d(n, 0) and add the bias. -/
def scaledBias {N C : Nat} (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => a i * d (ix2 (i 0) (0 : Fin 1)) + b (ix2 (0 : Fin 1) (i 1))

/-- Every edge e sends row src(e) of h to the node dst(e) names; entry (n, k) accumulates, from zero, what arrives. -/
def aggregate {N C M : Nat} (h : (⟨2, ![N, C]⟩ : Shape).Idx → EReal) (src : Fin M → Fin N) (dst : Fin M → ℤ) :
    (⟨2, ![N, C]⟩ : Shape).Idx → EReal :=
  fun i => 0 + ∑ e : Fin M, if dst e = (((i 0).val : ℕ) : ℤ) then h (ix2 (src e) (i 1)) else 0

/-- The two layers with the factor applied node by node: three dense stages around two aggregations. -/
def nodewise {N K C D M : Nat} (x : (⟨2, ![N, K]⟩ : Shape).Idx → EReal) (w0 : (⟨2, ![K, C]⟩ : Shape).Idx → EReal)
    (b0 : (⟨2, ![1, C]⟩ : Shape).Idx → EReal) (w1 : (⟨2, ![C, D]⟩ : Shape).Idx → EReal) (b1 : (⟨2, ![1, D]⟩ : Shape).Idx → EReal)
    (d : (⟨2, ![N, 1]⟩ : Shape).Idx → EReal) (src : Fin M → Fin N) (dst : Fin M → ℤ) : (⟨2, ![N, D]⟩ : Shape).Idx → EReal :=
  scaledBias (aggregate (scaledDot (rectified (aggregate (scaledDot x w0 d) src dst) d b0) w1 d) src dst) d b1

/-! ## Edge by edge -/

/-- One layer with the weight d(src e) · d(dstg e) applied to the message of every edge, then the bias. -/
def edgewiseLayer {N K C M : Nat} (h : (⟨2, ![N, K]⟩ : Shape).Idx → EReal) (w : (⟨2, ![K, C]⟩ : Shape).Idx → EReal)
    (b : Fin C → EReal) (dv : Fin N → EReal) (src dstg : Fin M → Fin N) (dst : Fin M → ℤ) : (⟨2, ![N, C]⟩ : Shape).Idx → EReal :=
  fun i => (0 + ∑ e : Fin M, if dst e = (((i 0).val : ℕ) : ℤ)
      then rowDot (rowOf h (src e)) w (i 1) * (dv (src e) * dv (dstg e)) else 0) + b (i 1)

/-- The two layers edge by edge, the rectifier between them. -/
def edgewise {N K C D M : Nat} (x : (⟨2, ![N, K]⟩ : Shape).Idx → EReal) (w0 : (⟨2, ![K, C]⟩ : Shape).Idx → EReal)
    (b0 : Fin C → EReal) (w1 : (⟨2, ![C, D]⟩ : Shape).Idx → EReal) (b1 : Fin D → EReal)
    (dv : Fin N → EReal) (src dstg : Fin M → Fin N) (dst : Fin M → ℤ) : (⟨2, ![N, D]⟩ : Shape).Idx → EReal :=
  edgewiseLayer (fun i => max (edgewiseLayer x w0 b0 dv src dstg dst i) z32) w1 b1 dv src dstg dst

/-- Rows gathered at a column of start words and accumulated, from a table of zeros, at another column of start words:
    entry (n, k) is the sum of the entries (src e, k) of the table over the edges e whose destination word is n. -/
theorem aggregate_of_ops {N C M : Nat} (hN : 0 < N)
    (wfs : ScatterDims.WF ⟨2, ![N, C]⟩ ⟨2, ![M, 1]⟩ ⟨2, ![M, C]⟩ [1] [0] [0] 1)
    (wfg : GatherDims.WF ⟨2, ![N, C]⟩ ⟨2, ![M, 1]⟩ ⟨2, ![M, C]⟩ [1] [0] [] [0] [] 1 ![1, C])
    (z : (⟨2, ![N, C]⟩ : Shape).Idx → EReal) (hz : ∀ i, z i = 0)
    (T : (⟨2, ![N, C]⟩ : Shape).Idx → EReal) (scol dcol : IVec (⟨2, ![M, 1]⟩ : Shape) 32) :
    Ideal.hostScatterAdd (Cert.Rows.scatter2 N C M wfs) z dcol (Host.gather (Cert.Rows.gather2 N C M wfg) T scol)
      = aggregate T (clampRow N hN scol) (startWord dcol) := by
  funext i
  obtain ⟨n, k, rfl⟩ : ∃ (n : Fin N) (k : Fin C), i = ix2 n k := ⟨i 0, i 1, eq_ix2 i⟩
  refine (Cert.Rows.scatterAdd2_apply wfs z dcol _ n k).trans ?_
  rw [hz]
  show 0 + ∑ e : Fin M, (if (dcol (ix2 e (0 : Fin 1))).toInt = ((n.val : ℕ) : ℤ)
      then Host.gather (Cert.Rows.gather2 N C M wfg) T scol (ix2 e k) else 0)
    = 0 + ∑ e : Fin M, if (dcol (ix2 e (0 : Fin 1))).toInt = ((n.val : ℕ) : ℤ)
      then T (ix2 (clampRow N hN scol e) k) else 0
  congr 1
  refine Finset.sum_congr rfl fun e _ => ?_
  rw [Cert.Rows.gather2_apply hN wfg T scol e k]
  rfl

/-! ## The two agree -/

/-- One aggregation of rows scaled at the source, scaled again at the destination, is the edge-by-edge weighted sum:
    the destination's factor is a nonnegative real, so it goes inside the sum, and every edge that lands on n has
    destination factor d(n). -/
theorem aggregate_scaled {N K C M : Nat} (h : (⟨2, ![N, K]⟩ : Shape).Idx → EReal) (w : (⟨2, ![K, C]⟩ : Shape).Idx → EReal)
    (d : (⟨2, ![N, 1]⟩ : Shape).Idx → EReal) (dv : Fin N → EReal) (src dstg : Fin M → Fin N) (dst : Fin M → ℤ)
    (hd : ∀ n, d (ix2 n (0 : Fin 1)) = dv n)
    (hdv : ∀ n, ∃ r : ℝ, 0 ≤ r ∧ dv n = (r : EReal))
    (hdst : ∀ e (n : Fin N), dst e = ((n.val : ℕ) : ℤ) → dstg e = n) (n : Fin N) (k : Fin C) :
    aggregate (scaledDot h w d) src dst (ix2 n k) * d (ix2 n (0 : Fin 1))
      = 0 + ∑ e : Fin M, if dst e = ((n.val : ℕ) : ℤ) then rowDot (rowOf h (src e)) w k * (dv (src e) * dv (dstg e)) else 0 := by
  obtain ⟨r, hr0, hr⟩ := hdv n
  have h0 : (0 : EReal) ≤ dv n := by rw [hr]; exact_mod_cast hr0
  have ht : dv n ≠ ⊤ := by rw [hr]; exact EReal.coe_ne_top r
  rw [hd n, mul_comm]
  show dv n * (0 + ∑ e : Fin M, if dst e = ((n.val : ℕ) : ℤ)
      then rowDot (rowOf h (src e)) w k * d (ix2 (src e) (0 : Fin 1)) else 0) = _
  simp only [hd]
  exact Cert.NormSum.normalized_sum_eq (M := M) (dv n) h0 ht (fun e => dst e = ((n.val : ℕ) : ℤ))
    (fun e => rowDot (rowOf h (src e)) w k) (fun e => dv (src e)) (fun e => dv (dstg e))
    (fun e he => by rw [hdst e n he])

/-- The two layers node by node are the two layers edge by edge. -/
theorem nodewise_eq_edgewise {N K C D M : Nat} (x : (⟨2, ![N, K]⟩ : Shape).Idx → EReal) (w0 : (⟨2, ![K, C]⟩ : Shape).Idx → EReal)
    (b0r : (⟨2, ![1, C]⟩ : Shape).Idx → EReal) (b0 : Fin C → EReal)
    (w1 : (⟨2, ![C, D]⟩ : Shape).Idx → EReal) (b1r : (⟨2, ![1, D]⟩ : Shape).Idx → EReal) (b1 : Fin D → EReal)
    (d : (⟨2, ![N, 1]⟩ : Shape).Idx → EReal) (dv : Fin N → EReal) (src dstg : Fin M → Fin N) (dst : Fin M → ℤ)
    (hb0 : ∀ k, b0r (ix2 (0 : Fin 1) k) = b0 k) (hb1 : ∀ k, b1r (ix2 (0 : Fin 1) k) = b1 k)
    (hd : ∀ n, d (ix2 n (0 : Fin 1)) = dv n)
    (hdv : ∀ n, ∃ r : ℝ, 0 ≤ r ∧ dv n = (r : EReal))
    (hdst : ∀ e (n : Fin N), dst e = ((n.val : ℕ) : ℤ) → dstg e = n) :
    nodewise x w0 b0r w1 b1r d src dst = edgewise x w0 b0 w1 b1 dv src dstg dst := by
  have h1 : rectified (aggregate (scaledDot x w0 d) src dst) d b0r
      = fun i => max (edgewiseLayer x w0 b0 dv src dstg dst i) z32 := by
    funext i
    obtain ⟨n, k, rfl⟩ : ∃ (n : Fin N) (k : Fin C), i = ix2 n k := ⟨i 0, i 1, eq_ix2 i⟩
    show max (aggregate (scaledDot x w0 d) src dst (ix2 n k) * d (ix2 n (0 : Fin 1)) + b0r (ix2 (0 : Fin 1) k)) z32
      = max ((0 + ∑ e : Fin M, if dst e = ((n.val : ℕ) : ℤ)
          then rowDot (rowOf x (src e)) w0 k * (dv (src e) * dv (dstg e)) else 0) + b0 k) z32
    rw [aggregate_scaled x w0 d dv src dstg dst hd hdv hdst n k, hb0]
  funext i
  obtain ⟨n, k, rfl⟩ : ∃ (n : Fin N) (k : Fin D), i = ix2 n k := ⟨i 0, i 1, eq_ix2 i⟩
  show aggregate (scaledDot (rectified (aggregate (scaledDot x w0 d) src dst) d b0r) w1 d) src dst (ix2 n k)
        * d (ix2 n (0 : Fin 1)) + b1r (ix2 (0 : Fin 1) k)
    = (0 + ∑ e : Fin M, if dst e = ((n.val : ℕ) : ℤ)
        then rowDot (rowOf (fun i => max (edgewiseLayer x w0 b0 dv src dstg dst i) z32) (src e)) w1 k
          * (dv (src e) * dv (dstg e)) else 0) + b1 k
  rw [h1, aggregate_scaled _ w1 d dv src dstg dst hd hdv hdst n k, hb1]

end Cert.Gcn

end
-- ==== Proof.KRun.lean ====
/-
  The idealized program's run with its result read.

  The program is three pipelined regions among stretches of host operations.  Every weakly fair execution ends with
  every unscoped buffer at the contents the fold through the program's segments leaves there; read at the result
  buffer that is the last region's output array after its write-backs, and at the six argument buffers it is the launch
  contents.
-/
import proofs.«148080_j80625126080586_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at what the fold through the segments
    leaves there and the arguments as launched. -/
theorem run : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.KRegions.lean ====
/-
  The three kernel regions, each as one function of its input arrays.

  A region runs its body once per block of 10000 rows: the point t of the grid reads rows 10000·t … 10000·t + 9999 of
  the row-blocked inputs and the whole of the small inputs (a weight matrix, a bias row), and writes rows
  10000·t … 10000·t + 9999 of the output.  The body's arithmetic at row p of the block, column q, uses row p of the
  blocked inputs only, so what point t writes is block t of ONE function of the whole input arrays; the ten blocks
  cover the 100000 rows, so the output array after the region is that function.  The functions are a matrix product
  with every row scaled (first region), scale + bias + rectifier followed by the same (second region), and
  scale + bias (third region).
-/
import proofs.«148080_j80625126080586_2_alg».proof.Proof.Gen.KernelIdeal.Frame
import proofs.«148080_j80625126080586_2_alg».proof.Proof.LibGcn
import proofs.«148080_j80625126080586_2_alg».proof.Proof.LibRowDot
import proofs.«148080_j80625126080586_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access. -/
theorem hz : (![0, 0] : Fin 2 → Nat) = fun _ => 0 := funext fun a => by fin_cases a <;> rfl

/-- A row times a matrix at a column depends on the row's entries and the matrix's column only. -/
theorem rowDot_congr {K N N' : Nat} (r r' : Fin K → EReal) (W : (⟨2, ![K, N]⟩ : Shape).Idx → EReal)
    (W' : (⟨2, ![K, N']⟩ : Shape).Idx → EReal) (q : Fin N) (q' : Fin N')
    (hr : ∀ k, r k = r' k) (hW : ∀ k, W (ix2 k q) = W' (ix2 k q')) :
    Cert.RowDot.rowDot r W q = Cert.RowDot.rowDot r' W' q' :=
  Finset.sum_congr rfl fun k _ => congrArg₂ (fun a b : EReal => a * b) (hr k) (hW k)

/-! ## First region: rows times the weight matrix, every row scaled -/

/-- The body's result at row p, column q of a block: row p of the block times the matrix, at q, times the row's factor. -/
theorem pay0_apply (x0 : Vec Ideal S10000x512 .f32) (x1 : Vec Ideal S512x16 .f32) (x2 : Vec Ideal S10000x1 .f32)
    (p : Fin 10000) (q : Fin 16) :
    k0_pay1 x0 x1 x2 (ix2 p q) = Cert.RowDot.rowDot (Cert.RowDot.rowOf x0 p) x1 q * x2 (ix2 p (0 : Fin 1)) := by
  unfold k0_pay1
  rw [mulf_apply, shapeCast_self, Cert.Column.broadcastTo_a1_ab_apply]
  exact congrArg (fun a : EReal => a * x2 (ix2 p (0 : Fin 1)))
    (Cert.RowDot.matmul_plain_zero_apply (M := 10000) (K := 512) (N := 16) none x0 x1 (ix2 p q))

/-- The block index of every window at every point: the row-blocked windows are at block (t, 0), the matrix at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- Entry (p, k) of the input block at point t is entry (10000·t + p, k) of the input array. -/
theorem iblk0_0_apply (c : Dev nD) (t : Fin cfg0.N) (p : Fin 10000) (k : Fin 512) (i : S100000x512.Idx)
    (hi0 : (i 0).val = 10000 * t.val + p.val) (hi1 : (i 1).val = k.val) :
    (iblk0 V c 0 t : Vec Ideal S10000x512 .f32) (ix2 p k) = (V c main_arg0 : S100000x512.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = (i 0).val; rw [e0, hi0]; omega
  | ⟨1, _⟩ => show win0_0.index t (1 : Fin 2) * 512 + 1 * k.val = (i 1).val; rw [e1, hi1]; omega

/-- The weight matrix's block is the matrix at every point. -/
theorem iblk0_1_apply (c : Dev nD) (t : Fin cfg0.N) (k : Fin 512) (q : Fin 16) :
    (iblk0 V c 1 t : Vec Ideal S512x16 .f32) (ix2 k q) = (V c main_arg2 : S512x16.Idx → EReal) (ix2 k q) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e0]; omega
  | ⟨1, _⟩ => show win0_1.index t (1 : Fin 2) * 16 + 1 * q.val = q.val; rw [e1]; omega

/-- Entry (p, 0) of the factor column's block at point t is entry (10000·t + p, 0) of the column. -/
theorem iblk0_2_apply (c : Dev nD) (t : Fin cfg0.N) (p : Fin 10000) (i : S100000x1.Idx)
    (hi0 : (i 0).val = 10000 * t.val + p.val) :
    (iblk0 V c 2 t : Vec Ideal S10000x1 .f32) (ix2 p (0 : Fin 1)) = (V c main_v15 : S100000x1.Idx → EReal) i := by
  obtain ⟨-, -, -, -, e0, e1, -⟩ := idx_facts0 t
  unfold iblk0
  rw [View.read_apply]
  show V c main_v15 _ = V c main_v15 _
  congr 1
  funext a
  apply Fin.ext
  have hi1 : (i 1).val = 0 := by have h : (i 1).val < 1 := (i 1).isLt; omega
  match a with
  | ⟨0, _⟩ => show win0_2.index t (0 : Fin 2) * 10000 + 1 * p.val = (i 0).val; rw [e0, hi0]; omega
  | ⟨1, _⟩ => show win0_2.index t (1 : Fin 2) * 1 + 1 * (0 : Fin 1).val = (i 1).val; rw [e1, hi1]; rfl

/-- What point t writes back is block t of the region's function of the input arrays. -/
theorem flushed0_eq (c : Dev nD) (t : Fin cfg0.N) :
    (dat0 (F := Ideal) V c).flushed 3 t = ((cfg0.win 3).blk t).view.read (Elt Ideal)
      (Cert.Gcn.scaledDot (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S10000x512) hz, View.ld_unit_zero (S := S512x16) hz, View.ld_unit_zero (S := S10000x1) hz]
  obtain ⟨-, -, -, -, -, -, e0, e1⟩ := idx_facts0 t
  refine funext fun (j : S10000x16.Idx) => ?_
  obtain ⟨p, q, rfl⟩ : ∃ (p : Fin 10000) (q : Fin 16), j = ix2 p q := ⟨j 0, j 1, eq_ix2 j⟩
  show k0_pay1 (iblk0 V c 0 t) (iblk0 V c 1 t) (iblk0 V c 2 t) (ix2 p q)
    = Cert.Gcn.scaledDot (V c main_arg0) (V c main_arg2) (V c main_v15) (((cfg0.win 3).blk t).view.emb (ix2 p q))
  refine (pay0_apply _ _ _ p q).trans ?_
  have hi0 : ((((cfg0.win 3).blk t).view.emb (ix2 p q) : S100000x16.Idx) 0).val = 10000 * t.val + p.val := by
    show win0_3.index t (0 : Fin 2) * 10000 + 1 * p.val = _; rw [e0]; omega
  have hi1 : ((((cfg0.win 3).blk t).view.emb (ix2 p q) : S100000x16.Idx) 1).val = q.val := by
    show win0_3.index t (1 : Fin 2) * 16 + 1 * q.val = _; rw [e1]; omega
  exact congrArg₂ (fun a b : EReal => a * b)
    (rowDot_congr _ _ _ _ q _ (fun k => iblk0_0_apply V c t p k _ hi0 rfl)
      (fun k => (iblk0_1_apply V c t k q).trans (congrArg (V c main_arg2 : S512x16.Idx → EReal) (congrArg (ix2 k) (Fin.ext hi1.symm)))))
    (iblk0_2_apply V c t p _ hi0)

end

/-- An index of the output array is in point t's block iff each coordinate is in the block's range on its axis. -/
theorem mem_blk0 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v18).slice (win0_3.rect t)).set ↔ _
  rw [View.set_slice_whole, Rect.mem_set_unit]
  exact Iff.rfl

/-- Row r of the output is in the block of point r / 10000. -/
theorem cover0 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  have ht : t.val = (i 0).val / 10000 := rfl
  obtain ⟨-, -, -, -, -, -, e0, e1⟩ := idx_facts0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 16 ≤ (i 1).val ∧ (i 1).val < win0_3.index t (1 : Fin 2) * 16 + 16; rw [e1]; omega

/-- The first region's output array after the region: every row of the input times the weight matrix, scaled by the row's factor. -/
theorem final0 (V : (c : Dev nD) → (b : Ref sig .tc) → Buf (Elt Ideal) ((c : Thread nD τ).loc b)) (c : Dev nD) :
    (dat0 (F := Ideal) V c).arrAt 3 cfg0.N = Cert.Gcn.scaledDot (V c main_arg0) (V c main_arg2) (V c main_v15) :=
  (dat0 (F := Ideal) V c).arrAt_eq_of_cover 3 (Cert.Gcn.scaledDot (V c main_arg0) (V c main_arg2) (V c main_v15))
    (fun t _ => flushed0_eq V c t) cover0

/-! ## Second region: scale, add the bias row, rectify; then rows times the weight matrix, every row scaled -/

/-- The body's result at row p, column q of a block: the rectified row p times the matrix, at q, times the row's factor. -/
theorem pay1_apply (x0 : Vec Ideal S10000x16 .f32) (x1 : Vec Ideal S10000x1 .f32) (x2 : Vec Ideal S1x16 .f32)
    (x3 : Vec Ideal S16x7 .f32) (x4 : Vec Ideal S10000x1 .f32) (p : Fin 10000) (q : Fin 7) :
    k1_pay1 x0 x1 x2 x3 x4 (ix2 p q)
      = Cert.RowDot.rowDot (fun k : Fin 16 => max (x0 (ix2 p k) * x1 (ix2 p (0 : Fin 1)) + x2 (ix2 (0 : Fin 1) k)) Cert.Gcn.z32) x3 q
        * x4 (ix2 p (0 : Fin 1)) := by
  unfold k1_pay1
  rw [mulf_apply]
  refine congrArg₂ (fun a b : EReal => a * b) ?_ ?_
  · refine (Cert.RowDot.matmul_plain_zero_apply (M := 10000) (K := 16) (N := 7) none _ x3 (ix2 p q)).trans ?_
    refine rowDot_congr _ _ _ _ q q (fun k => ?_) (fun k => rfl)
    unfold Cert.RowDot.rowOf
    rw [maximumf_apply, addf_apply, mulf_apply, broadcast_apply, shapeCast_self, shapeCast_self, shapeCast_self,
      Cert.Column.broadcastTo_a1_ab_apply, broadcastTo_1b_ab_apply]
    rfl
  · rw [shapeCast_self, Cert.Column.broadcastTo_a1_ab_apply]

/-- The second region's function at an index, written out. -/
theorem scaledDot_rectified_apply {N C D : Nat} (A : (⟨2, ![N, C]⟩ : Shape).Idx → EReal) (d : (⟨2, ![N, 1]⟩ : Shape).Idx → EReal)
    (b : (⟨2, ![1, C]⟩ : Shape).Idx → EReal) (W : (⟨2, ![C, D]⟩ : Shape).Idx → EReal) (i : (⟨2, ![N, D]⟩ : Shape).Idx) :
    Cert.Gcn.scaledDot (Cert.Gcn.rectified A d b) W d i
      = Cert.RowDot.rowDot (fun k : Fin C => max (A (ix2 (i 0) k) * d (ix2 (i 0) (0 : Fin 1)) + b (ix2 (0 : Fin 1) k)) Cert.Gcn.z32) W (i 1)
        * d (ix2 (i 0) (0 : Fin 1)) := rfl

/-- The block index of every window at every point: the row-blocked windows are at block (t, 0), the bias row and the matrix at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- Entry (p, k) of the input block at point t is entry (10000·t + p, k) of the input array. -/
theorem iblk1_0_apply (c : Dev nD) (t : Fin cfg1.N) (p : Fin 10000) (k : Fin 16) (i : S100000x16.Idx)
    (hi0 : (i 0).val = 10000 * t.val + p.val) (hi1 : (i 1).val = k.val) :
    (iblk1 V c 0 t : Vec Ideal S10000x16 .f32) (ix2 p k) = (V c main_v28 : S100000x16.Idx → EReal) i := by
  obtain ⟨e0, e1, -⟩ := idx_facts1 t
  unfold iblk1
  rw [View.read_apply]
  show V c main_v28 _ = V c main_v28 _
  congr 1
  funext a
  apply Fin.ext
  match a with
  | ⟨0, _⟩ => show win1_0.index t (0 : Fin 2) * 10000 + 1 * p.val = (i 0).val; rw [e0, hi0]; omega
  | ⟨1, _⟩ => show win1_0.index t (1 : Fin 2) * 16 + 1 * k.val = (i 1).val; rw [e1, hi1]; omega

/-- Entry (p, 0) of the factor column's block at point t is entry (10000·t + p, 0) of the column. -/
theorem iblk1_1_apply (c : Dev nD) (t : Fin cfg1.N) (p : Fin 10000) (i : S100000x1.Idx)
    (hi0 : (i 0).val = 10000 * t.val + p.val) :
    (iblk1 V c 1 t : Vec Ideal S10000x1 .f32) (ix2 p (0 : Fin 1)) = (V c main_v15 : S100000x1.Idx → EReal) i := by
  obtain ⟨-, -, e0, e1, -⟩ := idx_facts1 t
  unfold iblk1
  rw [View.read_apply]
  show V c main_v15 _ = V c main_v15 _
  congr 1
  funext a
  apply Fin.ext
  have hi1 : (i 1).val = 0 := by have h : (i 1).val < 1 := (i 1).isLt; omega
  match a with
  | ⟨0, _⟩ => show win1_1.index t (0 : Fin 2) * 10000 + 1 * p.val = (i 0).val; rw [e0, hi0]; omega
  | ⟨1, _⟩ => show win1_1.index t (1 : Fin 2) * 1 + 1 * (0 : Fin 1).val = (i 1).val; rw [e1, hi1]; rfl

/-- The bias row's block is the bias row at every point. -/
theorem iblk1_2_apply (c : Dev nD) (t : Fin cfg1.N) (k : Fin 16) :
    (iblk1 V c 2 t : Vec Ideal S1x16 .f32) (ix2 (0 : Fin 1) k) = (V c main_v16 : S1x16.Idx → EReal) (ix2 (0 : Fin 1) k) := by
  obtain ⟨-, -, -, -, e0, e1, -⟩ := idx_facts1 t
  unfold iblk1
  rw [View.read_apply]
  show V c main_v16 _ = V c main_v16 _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 16 + 1 * k.val = k.val; rw [e1]; omega

/-- The weight matrix's block is the matrix at every point. -/
theorem iblk1_3_apply (c : Dev nD) (t : Fin cfg1.N) (k : Fin 16) (q : Fin 7) :
    (iblk1 V c 3 t : Vec Ideal S16x7 .f32) (ix2 k q) = (V c main_arg4 : S16x7.Idx → EReal) (ix2 k q) := by
  obtain ⟨-, -, -, -, -, -, e0, e1, -⟩ := idx_facts1 t
  unfold iblk1
  rw [View.read_apply]
  show V c main_arg4 _ = V c main_arg4 _
  congr 1
  funext a
  apply Fin.ext
  match a with
  | ⟨0, _⟩ => show win1_3.index t (0 : Fin 2) * 16 + 1 * k.val = k.val; rw [e0]; omega
  | ⟨1, _⟩ => show win1_3.index t (1 : Fin 2) * 7 + 1 * q.val = q.val; rw [e1]; omega

/-- What point t writes back is block t of the region's function of the input arrays. -/
theorem flushed1_eq (c : Dev nD) (t : Fin cfg1.N) :
    (dat1 (F := Ideal) V c).flushed 4 t = ((cfg1.win 4).blk t).view.read (Elt Ideal)
      (Cert.Gcn.scaledDot (Cert.Gcn.rectified (V c main_v28) (V c main_v15) (V c main_v16)) (V c main_arg4) (V c main_v15)) := by
  show (cfg1.win 4).cut (grid1.coords t) ((dat1 V c).after 4 t) = _
  rw [after1_4]
  unfold out1_4
  rw [View.canon_unit_zero hz]
  simp only [View.ld_unit_zero (S := S10000x16) hz, View.ld_unit_zero (S := S10000x1) hz, View.ld_unit_zero (S := S1x16) hz,
    View.ld_unit_zero (S := S16x7) hz]
  obtain ⟨-, -, -, -, -, -, -, -, e0, e1⟩ := idx_facts1 t
  refine funext fun (j : S10000x7.Idx) => ?_
  obtain ⟨p, q, rfl⟩ : ∃ (p : Fin 10000) (q : Fin 7), j = ix2 p q := ⟨j 0, j 1, eq_ix2 j⟩
  show k1_pay1 (iblk1 V c 0 t) (iblk1 V c 1 t) (iblk1 V c 2 t) (iblk1 V c 3 t) (iblk1 V c 1 t) (ix2 p q)
    = Cert.Gcn.scaledDot (Cert.Gcn.rectified (V c main_v28) (V c main_v15) (V c main_v16)) (V c main_arg4) (V c main_v15)
        (((cfg1.win 4).blk t).view.emb (ix2 p q))
  refine (pay1_apply _ _ _ _ _ p q).trans ((?_ : _ = _).trans (scaledDot_rectified_apply _ _ _ _ _).symm)
  have hi0 : ((((cfg1.win 4).blk t).view.emb (ix2 p q) : S100000x7.Idx) 0).val = 10000 * t.val + p.val := by
    show win1_4.index t (0 : Fin 2) * 10000 + 1 * p.val = _; rw [e0]; omega
  have hi1 : ((((cfg1.win 4).blk t).view.emb (ix2 p q) : S100000x7.Idx) 1).val = q.val := by
    show win1_4.index t (1 : Fin 2) * 7 + 1 * q.val = _; rw [e1]; omega
  exact congrArg₂ (fun a b : EReal => a * b)
    (rowDot_congr _ _ _ _ q _
      (fun k => congrArg (fun a : EReal => max a Cert.Gcn.z32)
        (congrArg₂ (fun a b : EReal => a + b)
          (congrArg₂ (fun a b : EReal => a * b) (iblk1_0_apply V c t p k _ hi0 rfl) (iblk1_1_apply V c t p _ hi0))
          (iblk1_2_apply V c t k)))
      (fun k => (iblk1_3_apply V c t k q).trans (congrArg (V c main_arg4 : S16x7.Idx → EReal) (congrArg (ix2 k) (Fin.ext hi1.symm)))))
    (iblk1_1_apply V c t p _ hi0)

end

/-- An index of the output array is in point t's block iff each coordinate is in the block's range on its axis. -/
theorem mem_blk1 (t : Fin cfg1.N) (i : S100000x7.Idx) :
    i ∈ ((cfg1.win 4).blk t).view.set ↔ ∀ a : Fin 2, win1_4.index t a * S10000x7.size a ≤ (i a).val ∧ (i a).val < win1_4.index t a * S10000x7.size a + S10000x7.size a := by
  show i ∈ ((View.whole main_v29).slice (win1_4.rect t)).set ↔ _
  rw [View.set_slice_whole, Rect.mem_set_unit]
  exact Iff.rfl

/-- Row r of the output is in the block of point r / 10000. -/
theorem cover1 (i : S100000x7.Idx) : ∃ t : Fin cfg1.N, (cfg1.win 4).flush t = true ∧ i ∈ ((cfg1.win 4).blk t).view.set := by
  have hi0 : (i 0).val < 100000 := (i 0).isLt
  have hi1 : (i 1).val < 7 := (i 1).isLt
  have hN : cfg1.N = 10 := N_1
  let t : Fin cfg1.N := ⟨(i 0).val / 10000, by rw [hN]; omega⟩
  have ht : t.val = (i 0).val / 10000 := rfl
  obtain ⟨-, -, -, -, -, -, -, -, e0, e1⟩ := idx_facts1 t
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; rw [e0, ht]; omega
  | ⟨1, _⟩ => show win1_4.index t (1 : Fin 2) * 7 ≤ (i 1).val ∧ (i 1).val < win1_4.index t (1 : Fin 2) * 7 + 7; rw [e1]; omega

/-- The second region's output array after the region: the rows scaled, biased and rectified, times the weight matrix, scaled again. -/
theorem final1 (V : (c : Dev nD) → (b : Ref sig .tc) → Buf (Elt Ideal) ((c : Thread nD τ).loc b)) (c : Dev nD) :
    (dat1 (F := Ideal) V c).arrAt 4 cfg1.N
      = Cert.Gcn.scaledDot (Cert.Gcn.rectified (V c main_v28) (V c main_v15) (V c main_v16)) (V c main_arg4) (V c main_v15) :=
  (dat1 (F := Ideal) V c).arrAt_eq_of_cover 4
    (Cert.Gcn.scaledDot (Cert.Gcn.rectified (V c main_v28) (V c main_v15) (V c main_v16)) (V c main_arg4) (V c main_v15))
    (fun t _ => flushed1_eq V c t) cover1

/-! ## Third region: scale every row, add the bias row -/

/-- The body's result at row p, column q of a block: the block's entry times the row's factor plus the bias at q. -/
theorem pay2_apply (x0 : Vec Ideal S10000x7 .f32) (x1 : Vec Ideal S10000x1 .f32) (x2 : Vec Ideal S1x7 .f32)
    (p : Fin 10000) (q : Fin 7) :
    k2_pay1 x0 x1 x2 (ix2 p q) = x0 (ix2 p q) * x1 (ix2 p (0 : Fin 1)) + x2 (ix2 (0 : Fin 1) q) := by
  unfold k2_pay1
  rw [addf_apply, mulf_apply, shapeCast_self, shapeCast_self, shapeCast_self]
  rw [Cert.Column.broadcastTo_a1_ab_apply, broadcastTo_1b_ab_apply]

/-- The block index of every window at every point: the row-blocked windows are at block (t, 0), the bias row at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- Entry (p, q) of the input block at point t is entry (10000·t + p, q) of the input array. -/
theorem iblk2_0_apply (c : Dev nD) (t : Fin cfg2.N) (p : Fin 10000) (q : Fin 7) (k : S100000x7.Idx)
    (hk0 : (k 0).val = 10000 * t.val + p.val) (hk1 : (k 1).val = q.val) :
    (iblk2 V c 0 t : Vec Ideal S10000x7 .f32) (ix2 p q) = (V c main_v39 : S100000x7.Idx → EReal) k := by
  obtain ⟨e0, e1, -⟩ := idx_facts2 t
  unfold iblk2
  rw [View.read_apply]
  show V c main_v39 _ = V c main_v39 _
  congr 1
  funext a
  apply Fin.ext
  match a with
  | ⟨0, _⟩ => show win2_0.index t (0 : Fin 2) * 10000 + 1 * p.val = (k 0).val; rw [e0, hk0]; omega
  | ⟨1, _⟩ => show win2_0.index t (1 : Fin 2) * 7 + 1 * q.val = (k 1).val; rw [e1, hk1]; omega

/-- Entry (p, 0) of the factor column's block at point t is entry (10000·t + p, 0) of the column. -/
theorem iblk2_1_apply (c : Dev nD) (t : Fin cfg2.N) (p : Fin 10000) (k : S100000x1.Idx)
    (hk0 : (k 0).val = 10000 * t.val + p.val) :
    (iblk2 V c 1 t : Vec Ideal S10000x1 .f32) (ix2 p (0 : Fin 1)) = (V c main_v15 : S100000x1.Idx → EReal) k := by
  obtain ⟨-, -, e0, e1, -⟩ := idx_facts2 t
  unfold iblk2
  rw [View.read_apply]
  show V c main_v15 _ = V c main_v15 _
  congr 1
  funext a
  apply Fin.ext
  have hk1 : (k 1).val = 0 := by have h : (k 1).val < 1 := (k 1).isLt; omega
  match a with
  | ⟨0, _⟩ => show win2_1.index t (0 : Fin 2) * 10000 + 1 * p.val = (k 0).val; rw [e0, hk0]; omega
  | ⟨1, _⟩ => show win2_1.index t (1 : Fin 2) * 1 + 1 * (0 : Fin 1).val = (k 1).val; rw [e1, hk1]; rfl

/-- The bias row's block is the bias row at every point. -/
theorem iblk2_2_apply (c : Dev nD) (t : Fin cfg2.N) (q : Fin 7) :
    (iblk2 V c 2 t : Vec Ideal S1x7 .f32) (ix2 (0 : Fin 1) q) = (V c main_v17 : S1x7.Idx → EReal) (ix2 (0 : Fin 1) q) := by
  obtain ⟨-, -, -, -, e0, e1, -⟩ := idx_facts2 t
  unfold iblk2
  rw [View.read_apply]
  show V c main_v17 _ = V c main_v17 _
  congr 1
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 7 + 1 * q.val = q.val; rw [e1]; omega

/-- What point t writes back is block t of the region's function of the input arrays. -/
theorem flushed2_eq (c : Dev nD) (t : Fin cfg2.N) :
    (dat2 (F := Ideal) V c).flushed 3 t = ((cfg2.win 3).blk t).view.read (Elt Ideal)
      (Cert.Gcn.scaledBias (V c main_v39) (V c main_v15) (V c main_v17)) := by
  show (cfg2.win 3).cut (grid2.coords t) ((dat2 V c).after 3 t) = _
  rw [after2_3]
  unfold out2_3
  rw [View.canon_unit_zero hz]
  simp only [View.ld_unit_zero (S := S10000x7) hz, View.ld_unit_zero (S := S10000x1) hz, View.ld_unit_zero (S := S1x7) hz]
  obtain ⟨-, -, -, -, -, -, e0, e1⟩ := idx_facts2 t
  refine funext fun (j : S10000x7.Idx) => ?_
  obtain ⟨p, q, rfl⟩ : ∃ (p : Fin 10000) (q : Fin 7), j = ix2 p q := ⟨j 0, j 1, eq_ix2 j⟩
  show k2_pay1 (iblk2 V c 0 t) (iblk2 V c 1 t) (iblk2 V c 2 t) (ix2 p q)
    = Cert.Gcn.scaledBias (V c main_v39) (V c main_v15) (V c main_v17) (((cfg2.win 3).blk t).view.emb (ix2 p q))
  refine (pay2_apply _ _ _ p q).trans ?_
  have hi0 : ((((cfg2.win 3).blk t).view.emb (ix2 p q) : S100000x7.Idx) 0).val = 10000 * t.val + p.val := by
    show win2_3.index t (0 : Fin 2) * 10000 + 1 * p.val = _; rw [e0]; omega
  have hi1 : ((((cfg2.win 3).blk t).view.emb (ix2 p q) : S100000x7.Idx) 1).val = q.val := by
    show win2_3.index t (1 : Fin 2) * 7 + 1 * q.val = _; rw [e1]; omega
  exact congrArg₂ (fun a b : EReal => a + b)
    (congrArg₂ (fun a b : EReal => a * b) (iblk2_0_apply V c t p q _ hi0 hi1) (iblk2_1_apply V c t p _ hi0))
    ((iblk2_2_apply V c t q).trans (congrArg (V c main_v17 : S1x7.Idx → EReal) (congrArg (ix2 (0 : Fin 1)) (Fin.ext hi1.symm))))

end

/-- An index of the output array is in point t's block iff each coordinate is in the block's range on its axis. -/
theorem mem_blk2 (t : Fin cfg2.N) (i : S100000x7.Idx) :
    i ∈ ((cfg2.win 3).blk t).view.set ↔ ∀ a : Fin 2, win2_3.index t a * S10000x7.size a ≤ (i a).val ∧ (i a).val < win2_3.index t a * S10000x7.size a + S10000x7.size a := by
  show i ∈ ((View.whole main_v40).slice (win2_3.rect t)).set ↔ _
  rw [View.set_slice_whole, Rect.mem_set_unit]
  exact Iff.rfl

/-- Row r of the output is in the block of point r / 10000. -/
theorem cover2 (i : S100000x7.Idx) : ∃ t : Fin cfg2.N, (cfg2.win 3).flush t = true ∧ i ∈ ((cfg2.win 3).blk t).view.set := by
  have hi0 : (i 0).val < 100000 := (i 0).isLt
  have hi1 : (i 1).val < 7 := (i 1).isLt
  have hN : cfg2.N = 10 := N_2
  let t : Fin cfg2.N := ⟨(i 0).val / 10000, by rw [hN]; omega⟩
  have ht : t.val = (i 0).val / 10000 := rfl
  obtain ⟨-, -, -, -, -, -, e0, e1⟩ := idx_facts2 t
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; rw [e0, ht]; omega
  | ⟨1, _⟩ => show win2_3.index t (1 : Fin 2) * 7 ≤ (i 1).val ∧ (i 1).val < win2_3.index t (1 : Fin 2) * 7 + 7; rw [e1]; omega

/-- The third region's output array after the region: every row of the input scaled by its factor, plus the bias row. -/
theorem final2 (V : (c : Dev nD) → (b : Ref sig .tc) → Buf (Elt Ideal) ((c : Thread nD τ).loc b)) (c : Dev nD) :
    (dat2 (F := Ideal) V c).arrAt 3 cfg2.N = Cert.Gcn.scaledBias (V c main_v39) (V c main_v15) (V c main_v17) :=
  (dat2 (F := Ideal) V c).arrAt_eq_of_cover 3 (Cert.Gcn.scaledBias (V c main_v39) (V c main_v15) (V c main_v17))
    (fun t _ => flushed2_eq V c t) cover2

end Cert.KernelIdeal.RegionValue

end
-- ==== Proof.RefDefs.lean ====
/-
  The reference's edge list, read off its index arrays.

  Each of the 1,700,000 edges (the given ones, then one loop per node) has a source row and a destination row.  The
  reference looks rows up by a start word read signed, a negative word moved up by the number of nodes, the result
  clamped into range; it accumulates at the destination word itself, read signed, and an out-of-range word lands nowhere.
  The per-node factor is the guarded inverse square root of the number of edges that land on the node.
-/
import proofs.«148080_j80625126080586_2_alg».proof.Proof.RefReadP
import proofs.«148080_j80625126080586_2_alg».proof.Proof.LibGcn

noncomputable section

namespace Cert.ReferenceIdeal.RefValue

open Cert.ReferenceIdeal Cert.ReferenceIdeal.ReadP Idealize.ShloMosaic Idealize.ShloMosaic.ValueIdx

/-- The per-node factor d(n). -/
def dinvOf (x1 : (⟨S2x1600000, .i32⟩ : BufTy).Contents (Elt Ideal)) : Fin 100000 → EReal :=
  fun n => val_main_v15 (F := Ideal) x1 (ix1 n)

/-- The row an edge's message is read from. -/
def srcOf (x1 : (⟨S2x1600000, .i32⟩ : BufTy).Contents (Elt Ideal)) : Fin 1700000 → Fin 100000 :=
  Cert.Gcn.clampRow (M := 1700000) 100000 (by omega) (val_main_v36 (F := Ideal) x1)

/-- The row an edge's destination factor is read from. -/
def dstgOf (x1 : (⟨S2x1600000, .i32⟩ : BufTy).Contents (Elt Ideal)) : Fin 1700000 → Fin 100000 :=
  Cert.Gcn.clampRow (M := 1700000) 100000 (by omega) (val_main_v28 (F := Ideal) x1)

/-- The word an edge's message is accumulated at, read signed. -/
def dstOf (x1 : (⟨S2x1600000, .i32⟩ : BufTy).Contents (Elt Ideal)) : Fin 1700000 → ℤ :=
  Cert.Gcn.startWord (M := 1700000) (val_main_v42 (F := Ideal) x1)

end Cert.ReferenceIdeal.RefValue

end
-- ==== Proof.KHost.lean ====
/-
  The idealized kernel program's result as one function of its arguments.

  The program's buffers are followed through its eight segments.  Region 0 leaves the transformed rows scaled by the
  per-node factor; the host then sends row src(e) to dst(e) for every edge e and adds up what arrives; region 1 scales
  the sums, adds the bias, rectifies, transforms by the second matrix and scales again; the host aggregates once more;
  region 2 scales and adds the second bias.  The edge list and the per-node factor are computed by the first host
  stretch and are read unchanged by everything after it: no later host operation and no region writes them (a region
  only reads the factor's column through an input window).
-/
import proofs.«148080_j80625126080586_2_alg».proof.Proof.Gen.KernelIdeal.Frame
import proofs.«148080_j80625126080586_2_alg».proof.Proof.LibGcn
import proofs.«148080_j80625126080586_2_alg».proof.Proof.LibRows
import proofs.«148080_j80625126080586_2_alg».proof.Proof.RefDefs
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg) (c : Dev nD)

/-! ## What the first host stretch leaves, in the reference's own words for the same operations -/

/-- The per-node factor as a column. -/
abbrev dcol (x1 : (⟨S2x1600000, .i32⟩ : BufTy).Contents (Elt Ideal)) : (⟨S100000x1, .f32⟩ : BufTy).Contents (Elt Ideal) :=
  broadcastInDim S100000x1 ![0] bcast_S100000_S100000x1_0 (Cert.ReferenceIdeal.ReadP.val_main_v15 (F := Ideal) x1)

/-- A bias of 16 numbers kept as a 1×16 array. -/
abbrev b0row (x3 : (⟨S16, .f32⟩ : BufTy).Contents (Elt Ideal)) : (⟨S1x16, .f32⟩ : BufTy).Contents (Elt Ideal) :=
  broadcastInDim S1x16 ![1] bcast_S16_S1x16_1 x3

/-- A bias of 7 numbers kept as a 1×7 array. -/
abbrev b1row (x5 : (⟨S7, .f32⟩ : BufTy).Contents (Elt Ideal)) : (⟨S1x7, .f32⟩ : BufTy).Contents (Elt Ideal) :=
  broadcastInDim S1x7 ![1] bcast_S7_S1x7_1 x5

/-! ## The column and the two rows, read at an index -/

theorem dcol_apply (x1 : (⟨S2x1600000, .i32⟩ : BufTy).Contents (Elt Ideal)) (n : Fin 100000) :
    dcol x1 (ix2 n (0 : Fin 1)) = Cert.ReferenceIdeal.ReadP.val_main_v15 (F := Ideal) x1 (ix1 n) :=
  broadcastInDim_apply (s := S100000) (t := S100000x1) ![0] bcast_S100000_S100000x1_0 (Cert.ReferenceIdeal.ReadP.val_main_v15 (F := Ideal) x1) (ix2 n (0 : Fin 1)) (ix1 n) (fun a => by
    match a with
    | ⟨0, _⟩ =>
      show n.val = if (100000 : ℕ) = 1 then 0 else n.val
      rw [if_neg (by omega)])

theorem b0row_apply (x3 : (⟨S16, .f32⟩ : BufTy).Contents (Elt Ideal)) (k : Fin 16) :
    b0row x3 (ix2 (0 : Fin 1) k) = x3 (ix1 k) :=
  broadcastInDim_apply (s := S16) (t := S1x16) ![1] bcast_S16_S1x16_1 x3 (ix2 (0 : Fin 1) k) (ix1 k) (fun a => by
    match a with
    | ⟨0, _⟩ =>
      show k.val = if (16 : ℕ) = 1 then 0 else k.val
      rw [if_neg (by omega)])

theorem b1row_apply (x5 : (⟨S7, .f32⟩ : BufTy).Contents (Elt Ideal)) (k : Fin 7) :
    b1row x5 (ix2 (0 : Fin 1) k) = x5 (ix1 k) :=
  broadcastInDim_apply (s := S7) (t := S1x7) ![1] bcast_S7_S1x7_1 x5 (ix2 (0 : Fin 1) k) (ix1 k) (fun a => by
    match a with
    | ⟨0, _⟩ =>
      show k.val = if (7 : ℕ) = 1 then 0 else k.val
      rw [if_neg (by omega)])

/-! The factor's column, stretch by stretch.  The first stretch (the slices, the joined edge list, the count, the
    comparison and the inverse square root) is the reference's operations word for word; the called function is a select
    against a broadcast zero on any contents (its casts between a buffer's type and its tensor type are identities). -/

theorem W1_v12 : StableHlo.after hostOps0 (W0 m ρ c) (Proc.devRef .tc main_v12)
    = Cert.ReferenceIdeal.ReadP.val_main_v13 (F := Ideal) (m ((c : Thread nD τ).loc main_arg1)) := by
  after_results
  rfl

theorem W1_v13 : StableHlo.after hostOps0 (W0 m ρ c) (Proc.devRef .tc main_v13)
    = Cert.ReferenceIdeal.ReadP.val_main_v14 (F := Ideal) (m ((c : Thread nD τ).loc main_arg1)) := by
  after_results
  rfl

theorem W1_cst2 : StableHlo.after hostOps0 (W0 m ρ c) (Proc.devRef .tc main_cst_2)
    = Cert.ReferenceIdeal.ReadP.val_main_cst_2 (F := Ideal) := by
  after_results
  rfl

/-- The called function's three operations on any contents: a select against a broadcast zero. -/
theorem where_stretch (Wv : Valuation τ sig (Elt Ideal)) :
    StableHlo.after hostOps0_1 Wv (Proc.devRef .tc main_v14)
      = select (Wv (Proc.devRef .tc main_v12)) (Wv (Proc.devRef .tc main_v13))
          (broadcastInDim S100000 ![] bcast_S_S100000 (id (Wv (Proc.devRef .tc main_cst_2)))) := by
  after_results
  rfl

theorem factor_of_stretch (x1 : (⟨S2x1600000, .i32⟩ : BufTy).Contents (Elt Ideal)) (Wv : Valuation τ sig (Elt Ideal))
    (h12 : Wv (Proc.devRef .tc main_v12) = Cert.ReferenceIdeal.ReadP.val_main_v13 (F := Ideal) x1)
    (h13 : Wv (Proc.devRef .tc main_v13) = Cert.ReferenceIdeal.ReadP.val_main_v14 (F := Ideal) x1)
    (hc : Wv (Proc.devRef .tc main_cst_2) = Cert.ReferenceIdeal.ReadP.val_main_cst_2 (F := Ideal)) :
    StableHlo.after hostOps0_1 Wv (Proc.devRef .tc main_v14) = Cert.ReferenceIdeal.ReadP.val_main_v15 (F := Ideal) x1 := by
  rw [where_stretch, h12, h13, hc]
  rfl

theorem column_of_factor (x1 : (⟨S2x1600000, .i32⟩ : BufTy).Contents (Elt Ideal)) (Wv : Valuation τ sig (Elt Ideal))
    (h14 : Wv (Proc.devRef .tc main_v14) = Cert.ReferenceIdeal.ReadP.val_main_v15 (F := Ideal) x1) :
    StableHlo.after hostOps0_2 Wv (Proc.devRef .tc main_v15) = dcol x1 := by
  after_results
  rw [h14]

theorem W3_v15 : W3 m ρ c (Proc.devRef .tc main_v15) = dcol (m ((c : Thread nD τ).loc main_arg1)) :=
  column_of_factor _ _ (factor_of_stretch _ _ (W1_v12 m ρ c) (W1_v13 m ρ c) (W1_cst2 m ρ c))

theorem W3_v16 : W3 m ρ c (Proc.devRef .tc main_v16) = b0row (m ((c : Thread nD τ).loc main_arg3)) := by
  show StableHlo.after hostOps0_2 (StableHlo.after hostOps0_1 (StableHlo.after hostOps0 (W0 m ρ c))) (Proc.devRef .tc main_v16) = _
  after_results

theorem W3_v17 : W3 m ρ c (Proc.devRef .tc main_v17) = b1row (m ((c : Thread nD τ).loc main_arg5)) := by
  show StableHlo.after hostOps0_2 (StableHlo.after hostOps0_1 (StableHlo.after hostOps0 (W0 m ρ c))) (Proc.devRef .tc main_v17) = _
  after_results

/-- The source words of the 1,700,000 edges. -/
theorem W3_v5 : W3 m ρ c (Proc.devRef .tc main_v5)
    = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v5) = _
  after_results
  rfl

/-- The destination words of the 1,700,000 edges. -/
theorem W3_v6 : W3 m ρ c (Proc.devRef .tc main_v6)
    = Cert.ReferenceIdeal.ReadP.val_main_v7 (F := Ideal) (m ((c : Thread nD τ).loc main_arg1)) := by
  show StableHlo.after hostOps0_2 (StableHlo.after hostOps0_1 (StableHlo.after hostOps0 (W0 m ρ c))) (Proc.devRef .tc main_v6) = _
  after_results
  rfl

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

/-! ## Later segments leave the edge list, the factor and the biases alone -/

theorem W4_v15 : W4 m ρ c (Proc.devRef .tc main_v15) = dcol (m ((c : Thread nD τ).loc main_arg1)) :=
  ((W4_arr m ρ c 2).trans (((dat0 (V3 m ρ) c).arrAt_in 2 rfl _).trans (A_eq0 (V3 m ρ) c 2))).trans (W3_v15 m ρ c)

theorem W4_v5 : W4 m ρ c (Proc.devRef .tc main_v5) = Cert.ReferenceIdeal.ReadP.val_main_v6 (F := Ideal) (m ((c : Thread nD τ).loc main_arg1)) :=
  (W4_of_ne m ρ c main_v5 (by decide)).trans (W3_v5 m ρ c)

theorem W4_v6 : W4 m ρ c (Proc.devRef .tc main_v6) = Cert.ReferenceIdeal.ReadP.val_main_v7 (F := Ideal) (m ((c : Thread nD τ).loc main_arg1)) :=
  (W4_of_ne m ρ c main_v6 (by decide)).trans (W3_v6 m ρ c)

theorem W5_v15 : W5 m ρ c (Proc.devRef .tc main_v15) = dcol (m ((c : Thread nD τ).loc main_arg1)) := by
  show StableHlo.after hostOps1 (W4 m ρ c) (Proc.devRef .tc main_v15) = _
  after_results
  exact W4_v15 m ρ c

theorem W5_v16 : W5 m ρ c (Proc.devRef .tc main_v16) = b0row (m ((c : Thread nD τ).loc main_arg3)) := by
  show StableHlo.after hostOps1 (W4 m ρ c) (Proc.devRef .tc main_v16) = _
  after_results
  exact (W4_of_ne m ρ c main_v16 (by decide)).trans (W3_v16 m ρ c)

theorem W5_v17 : W5 m ρ c (Proc.devRef .tc main_v17) = b1row (m ((c : Thread nD τ).loc main_arg5)) := by
  show StableHlo.after hostOps1 (W4 m ρ c) (Proc.devRef .tc main_v17) = _
  after_results
  exact (W4_of_ne m ρ c main_v17 (by decide)).trans (W3_v17 m ρ c)

theorem W5_arg4 : W5 m ρ c (Proc.devRef .tc main_arg4) = m ((c : Thread nD τ).loc main_arg4) := by
  show StableHlo.after hostOps1 (W4 m ρ c) (Proc.devRef .tc main_arg4) = _
  after_results
  exact (W4_of_ne m ρ c main_arg4 (by decide)).trans (W3_arg4 m ρ c)

theorem W5_v5 : W5 m ρ c (Proc.devRef .tc main_v5) = Cert.ReferenceIdeal.ReadP.val_main_v6 (F := Ideal) (m ((c : Thread nD τ).loc main_arg1)) := by
  show StableHlo.after hostOps1 (W4 m ρ c) (Proc.devRef .tc main_v5) = _
  after_results
  exact W4_v5 m ρ c

theorem W5_v6 : W5 m ρ c (Proc.devRef .tc main_v6) = Cert.ReferenceIdeal.ReadP.val_main_v7 (F := Ideal) (m ((c : Thread nD τ).loc main_arg1)) := by
  show StableHlo.after hostOps1 (W4 m ρ c) (Proc.devRef .tc main_v6) = _
  after_results
  exact W4_v6 m ρ c

theorem W6_v15 : W6 m ρ c (Proc.devRef .tc main_v15) = dcol (m ((c : Thread nD τ).loc main_arg1)) :=
  ((W6_arr m ρ c 1).trans (((dat1 (V5 m ρ) c).arrAt_in 1 rfl _).trans (A_eq1 (V5 m ρ) c 1))).trans (W5_v15 m ρ c)

theorem W6_v17 : W6 m ρ c (Proc.devRef .tc main_v17) = b1row (m ((c : Thread nD τ).loc main_arg5)) :=
  (W6_of_ne m ρ c main_v17 (by decide)).trans (W5_v17 m ρ c)

theorem W6_v5 : W6 m ρ c (Proc.devRef .tc main_v5) = Cert.ReferenceIdeal.ReadP.val_main_v6 (F := Ideal) (m ((c : Thread nD τ).loc main_arg1)) :=
  (W6_of_ne m ρ c main_v5 (by decide)).trans (W5_v5 m ρ c)

theorem W6_v6 : W6 m ρ c (Proc.devRef .tc main_v6) = Cert.ReferenceIdeal.ReadP.val_main_v7 (F := Ideal) (m ((c : Thread nD τ).loc main_arg1)) :=
  (W6_of_ne m ρ c main_v6 (by decide)).trans (W5_v6 m ρ c)

theorem W7_v15 : W7 m ρ c (Proc.devRef .tc main_v15) = dcol (m ((c : Thread nD τ).loc main_arg1)) := by
  show StableHlo.after hostOps2 (W6 m ρ c) (Proc.devRef .tc main_v15) = _
  after_results
  exact W6_v15 m ρ c

theorem W7_v17 : W7 m ρ c (Proc.devRef .tc main_v17) = b1row (m ((c : Thread nD τ).loc main_arg5)) := by
  show StableHlo.after hostOps2 (W6 m ρ c) (Proc.devRef .tc main_v17) = _
  after_results
  exact W6_v17 m ρ c

/-! ## The two aggregations -/

/-- Between regions 0 and 1: the rows region 0 left, sent along the edges and added up. -/
theorem W5_v28 : W5 m ρ c (Proc.devRef .tc main_v28)
    = Cert.Gcn.aggregate (N := 100000) (C := 16) (M := 1700000) (W4 m ρ c (Proc.devRef .tc main_v18))
        (Cert.ReferenceIdeal.RefValue.srcOf (m ((c : Thread nD τ).loc main_arg1))) (Cert.ReferenceIdeal.RefValue.dstOf (m ((c : Thread nD τ).loc main_arg1))) := by
  show StableHlo.after hostOps1 (W4 m ρ c) (Proc.devRef .tc main_v28) = _
  after_results
  rw [W4_v5, W4_v6]
  exact Cert.Gcn.aggregate_of_ops (N := 100000) (C := 16) (M := 1700000) (by omega)
    scatter_S100000x16_S1700000x1_S1700000x16_1_0_0_1.wf gather_S100000x16_S1700000x1_S1700000x16_1_0_n_n_0_1_116.wf
    _ (fun _ => Ideal.ofBits_zero_f32) _ _ _

/-- Between regions 1 and 2: the rows region 1 left, sent along the edges and added up. -/
theorem W7_v39 : W7 m ρ c (Proc.devRef .tc main_v39)
    = Cert.Gcn.aggregate (N := 100000) (C := 7) (M := 1700000) (W6 m ρ c (Proc.devRef .tc main_v29))
        (Cert.ReferenceIdeal.RefValue.srcOf (m ((c : Thread nD τ).loc main_arg1))) (Cert.ReferenceIdeal.RefValue.dstOf (m ((c : Thread nD τ).loc main_arg1))) := by
  show StableHlo.after hostOps2 (W6 m ρ c) (Proc.devRef .tc main_v39) = _
  after_results
  rw [W6_v5, W6_v6]
  exact Cert.Gcn.aggregate_of_ops (N := 100000) (C := 7) (M := 1700000) (by omega)
    scatter_S100000x7_S1700000x1_S1700000x7_1_0_0_1.wf gather_S100000x7_S1700000x1_S1700000x7_1_0_n_n_0_1_17.wf
    _ (fun _ => Ideal.ofBits_zero_f32) _ _ _

/-! ## The result -/

/-- The result buffer after the run is the two layers, the factor applied node by node — given what each region's
    output array holds after its write-backs, for any entry contents. -/
theorem kernel_value
    (hf0 : ∀ (V : (c : Dev nD) → (b : Ref sig .tc) → Buf (Elt Ideal) ((c : Thread nD τ).loc b)) (c : Dev nD),
      (dat0 (F := Ideal) V c).arrAt 3 cfg0.N = Cert.Gcn.scaledDot (V c main_arg0) (V c main_arg2) (V c main_v15))
    (hf1 : ∀ (V : (c : Dev nD) → (b : Ref sig .tc) → Buf (Elt Ideal) ((c : Thread nD τ).loc b)) (c : Dev nD),
      (dat1 (F := Ideal) V c).arrAt 4 cfg1.N
        = Cert.Gcn.scaledDot (Cert.Gcn.rectified (V c main_v28) (V c main_v15) (V c main_v16)) (V c main_arg4) (V c main_v15))
    (hf2 : ∀ (V : (c : Dev nD) → (b : Ref sig .tc) → Buf (Elt Ideal) ((c : Thread nD τ).loc b)) (c : Dev nD),
      (dat2 (F := Ideal) V c).arrAt 3 cfg2.N = Cert.Gcn.scaledBias (V c main_v39) (V c main_v15) (V c main_v17)) :
    W8 m ρ c (Proc.devRef .tc main_v40)
      = Cert.Gcn.nodewise (N := 100000) (K := 512) (C := 16) (D := 7) (M := 1700000)
          (m ((c : Thread nD τ).loc main_arg0)) (m ((c : Thread nD τ).loc main_arg2)) (b0row (m ((c : Thread nD τ).loc main_arg3)))
          (m ((c : Thread nD τ).loc main_arg4)) (b1row (m ((c : Thread nD τ).loc main_arg5))) (dcol (m ((c : Thread nD τ).loc main_arg1)))
          (Cert.ReferenceIdeal.RefValue.srcOf (m ((c : Thread nD τ).loc main_arg1))) (Cert.ReferenceIdeal.RefValue.dstOf (m ((c : Thread nD τ).loc main_arg1))) := by
  have e0 : W4 m ρ c (Proc.devRef .tc main_v18)
      = Cert.Gcn.scaledDot (m ((c : Thread nD τ).loc main_arg0)) (m ((c : Thread nD τ).loc main_arg2)) (dcol (m ((c : Thread nD τ).loc main_arg1))) := by
    refine ((W4_arr m ρ c 3).trans (hf0 (V3 m ρ) c)).trans ?_
    show Cert.Gcn.scaledDot (W3 m ρ c (Proc.devRef .tc main_arg0)) (W3 m ρ c (Proc.devRef .tc main_arg2)) (W3 m ρ c (Proc.devRef .tc main_v15)) = _
    rw [W3_arg0, W3_arg2, W3_v15]
  have e1 : W6 m ρ c (Proc.devRef .tc main_v29)
      = Cert.Gcn.scaledDot (Cert.Gcn.rectified (W5 m ρ c (Proc.devRef .tc main_v28)) (dcol (m ((c : Thread nD τ).loc main_arg1))) (b0row (m ((c : Thread nD τ).loc main_arg3))))
          (m ((c : Thread nD τ).loc main_arg4)) (dcol (m ((c : Thread nD τ).loc main_arg1))) := by
    refine ((W6_arr m ρ c 4).trans (hf1 (V5 m ρ) c)).trans ?_
    show Cert.Gcn.scaledDot (Cert.Gcn.rectified (W5 m ρ c (Proc.devRef .tc main_v28)) (W5 m ρ c (Proc.devRef .tc main_v15)) (W5 m ρ c (Proc.devRef .tc main_v16)))
      (W5 m ρ c (Proc.devRef .tc main_arg4)) (W5 m ρ c (Proc.devRef .tc main_v15)) = _
    rw [W5_v15, W5_v16, W5_arg4]
  refine ((W8_arr m ρ c 3).trans (hf2 (V7 m ρ) c)).trans ?_
  show Cert.Gcn.scaledBias (W7 m ρ c (Proc.devRef .tc main_v39)) (W7 m ρ c (Proc.devRef .tc main_v15)) (W7 m ρ c (Proc.devRef .tc main_v17)) = _
  rw [W7_v39, W7_v15, W7_v17, e1, W5_v28, e0]
  rfl

end Cert.KernelIdeal.HostValue

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.RefValue.lean ====
/-
  The reference's result read index by index: two graph-convolution layers, the weight applied edge by edge.

  The reference builds, per layer, the table of transformed rows (rows of the input times the layer's matrix), looks
  up for every edge the transformed row of its source and the two per-node factors of its source and destination,
  multiplies the row by the product of the two factors, and accumulates the weighted rows at the edges' destination
  words, starting from zero; it then adds the bias.  Between the layers it takes the maximum with zero.  The second
  layer recomputes the edge list and the per-node factor; the recomputed arrays are the first layer's, term for term.
  Read at an index (n, k), a layer is  (0 + Σ over the edges e that land on n of  (h·W)(src e, k) · (d(src e) · d(dst e))) + b(k).
-/
import proofs.«148080_j80625126080586_2_alg».proof.Proof.RefReadP
import proofs.«148080_j80625126080586_2_alg».proof.Proof.RefDefs
import proofs.«148080_j80625126080586_2_alg».proof.Proof.LibGcn
import proofs.«148080_j80625126080586_2_alg».proof.Proof.LibRows
import proofs.«148080_j80625126080586_2_alg».proof.Proof.LibRows1
import proofs.«148080_j80625126080586_2_alg».proof.Proof.LibRowDot
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.ReferenceIdeal.RefRead

open Cert.ReferenceIdeal Cert.ReferenceIdeal.Gen Cert.ReferenceIdeal.ReadP Cert.ReferenceIdeal.RefValue
  Idealize.ShloMosaic Idealize.ShloMosaic.ValueIdx Cert.Gcn Cert.RowDot

/-! ## The second layer's recomputed index and factor arrays are the first layer's -/

variable (x1 : (⟨S2x1600000, .i32⟩ : BufTy).Contents (Elt Ideal))

theorem v50_eq : val_main_v50 (F := Ideal) x1 = val_main_v6 (F := Ideal) x1 := rfl
theorem v51_eq : val_main_v51 (F := Ideal) x1 = val_main_v7 (F := Ideal) x1 := rfl
theorem v59_eq : val_main_v59 (F := Ideal) x1 = val_main_v15 (F := Ideal) x1 := rfl
theorem v21_eq : val_main_v21 (F := Ideal) x1 = val_main_v36 (F := Ideal) x1 := rfl
theorem v65_eq : val_main_v65 (F := Ideal) x1 = val_main_v36 (F := Ideal) x1 := rfl
theorem v80_eq : val_main_v80 (F := Ideal) x1 = val_main_v36 (F := Ideal) x1 := rfl
theorem v72_eq : val_main_v72 (F := Ideal) x1 = val_main_v28 (F := Ideal) x1 := rfl
theorem v86_eq : val_main_v86 (F := Ideal) x1 = val_main_v42 (F := Ideal) x1 := rfl

/-! ## One accumulation of weighted rows, for any sizes -/

/-- Rows of a table  t  looked up at a source column, each multiplied by the product of two entries of a vector  dv
    looked up at the source column and at a destination column, accumulated from a zero table at a third column:
    entry (n, k) is  0 + Σ over the edges whose accumulation word is n  of  t(src e, k) · (dv(src e) · dv(dstg e)). -/
theorem scatter_weighted {N C M : Nat} (hN : 0 < N)
    (gw2 : GatherDims.WF ⟨2, ![N, C]⟩ ⟨2, ![M, 1]⟩ ⟨2, ![M, C]⟩ [1] [0] [] [0] [] 1 ![1, C])
    (gw1 : GatherDims.WF ⟨1, ![N]⟩ ⟨2, ![M, 1]⟩ ⟨1, ![M]⟩ [] [0] [] [0] [] 1 ![1])
    (sw2 : ScatterDims.WF ⟨2, ![N, C]⟩ ⟨2, ![M, 1]⟩ ⟨2, ![M, C]⟩ [1] [0] [0] 1)
    (t : (⟨2, ![N, C]⟩ : Shape).Idx → EReal) (dv : (⟨1, ![N]⟩ : Shape).Idx → EReal)
    (cs cg cd : IVec (⟨2, ![M, 1]⟩ : Shape) 32)
    (z : (⟨2, ![N, C]⟩ : Shape).Idx → EReal) (u : (⟨2, ![M, C]⟩ : Shape).Idx → EReal)
    (hz : ∀ i, z i = 0)
    (hu : ∀ (e : Fin M) (k : Fin C), u (ix2 e k)
      = Host.gather (Cert.Rows.gather2 N C M gw2) t cs (ix2 e k)
        * (Host.gather (Cert.Rows1.gather1 N M gw1) dv cs (ix1 e) * Host.gather (Cert.Rows1.gather1 N M gw1) dv cg (ix1 e)))
    (n : Fin N) (k : Fin C) :
    Ideal.hostScatterAdd (Cert.Rows.scatter2 N C M sw2) z cd u (ix2 n k)
      = 0 + ∑ e : Fin M, if startWord cd e = ((n.val : ℕ) : ℤ)
          then t (ix2 (clampRow N hN cs e) k) * (dv (ix1 (clampRow N hN cs e)) * dv (ix1 (clampRow N hN cg e))) else 0 := by
  rw [Cert.Rows.scatterAdd2_apply, hz]
  refine congrArg (fun s : EReal => 0 + s) (Finset.sum_congr rfl fun e _ => ?_)
  rw [hu, Cert.Rows.gather2_apply hN, Cert.Rows1.gather1_apply hN, Cert.Rows1.gather1_apply hN]
  rfl

/-! ## The first layer -/

variable (x0 : (⟨S100000x512, .f32⟩ : BufTy).Contents (Elt Ideal)) (x2 : (⟨S512x16, .f32⟩ : BufTy).Contents (Elt Ideal))
  (x3 : (⟨S16, .f32⟩ : BufTy).Contents (Elt Ideal)) (x4 : (⟨S16x7, .f32⟩ : BufTy).Contents (Elt Ideal))
  (x5 : (⟨S7, .f32⟩ : BufTy).Contents (Elt Ideal))

/-- The first product at (m, k) is row m of the input times the first matrix, at column k. -/
theorem v4_read (m : Fin 100000) (k : Fin 16) :
    val_main_v4 (F := Ideal) x0 x2 (ix2 m k) = rowDot (rowOf x0 m) x2 k := by
  rw [val_main_v4_apply]
  unfold rowDot rowOf
  refine Finset.sum_congr rfl fun j _ => ?_
  have el : lidx_main_v4 (ix2 m k) j = ix2 m j :=
    funext fun a => Fin.ext (by match a with | ⟨0, _⟩ => rfl | ⟨1, _⟩ => rfl)
  have er : ridx_main_v4 (ix2 m k) j = ix2 j k :=
    funext fun a => Fin.ext (by match a with | ⟨0, _⟩ => rfl | ⟨1, _⟩ => rfl)
  rw [el, er]

/-- The first layer's zero table. -/
theorem v41_zero (i : S100000x16.Idx) : val_main_v41 (F := Ideal) i = 0 := by
  rw [val_main_v41_apply, val_main_cst_8_apply]
  exact Ideal.ofBits_zero_f32

/-- The first layer's weighted message at (e, k). -/
theorem v40_read (e : Fin 1700000) (k : Fin 16) :
    val_main_v40 (F := Ideal) x0 x1 x2 (ix2 e k)
      = Host.gather (Cert.Rows.gather2 100000 16 1700000 gather_S100000x16_S1700000x1_S1700000x16_1_0_n_n_0_1_116.wf)
            (val_main_v4 (F := Ideal) x0 x2) (val_main_v36 (F := Ideal) x1) (ix2 e k)
        * (Host.gather (Cert.Rows1.gather1 100000 1700000 gather_S100000_S1700000x1_S1700000_n_0_n_n_0_1_1.wf)
              (val_main_v15 (F := Ideal) x1) (val_main_v36 (F := Ideal) x1) (ix1 e)
          * Host.gather (Cert.Rows1.gather1 100000 1700000 gather_S100000_S1700000x1_S1700000_n_0_n_n_0_1_1.wf)
              (val_main_v15 (F := Ideal) x1) (val_main_v28 (F := Ideal) x1) (ix1 e)) := by
  rw [val_main_v40_apply, val_main_v39_apply, val_main_v38_apply, val_main_v30_apply]
  have hi : idx_main_v38 (idx_main_v39 (ix2 e k)) = ix1 e :=
    funext fun a => Fin.ext (by match a with | ⟨0, _⟩ => rfl)
  rw [hi]
  show val_main_v37 (F := Ideal) x0 x1 x2 (ix2 e k)
      * (Host.gather gather_S100000_S1700000x1_S1700000_n_0_n_n_0_1_1 (val_main_v15 (F := Ideal) x1) (val_main_v21 (F := Ideal) x1) (ix1 e)
        * val_main_v29 (F := Ideal) x1 (ix1 e)) = _
  rw [v21_eq]
  rfl

/-- The first accumulation is the accumulating scatter of the weighted messages into the zero table. -/
theorem v43_form :
    val_main_v43 (F := Ideal) x0 x1 x2
      = Ideal.hostScatterAdd (Cert.Rows.scatter2 100000 16 1700000 scatter_S100000x16_S1700000x1_S1700000x16_1_0_0_1.wf)
          (val_main_v41 (F := Ideal)) (val_main_v42 (F := Ideal) x1) (val_main_v40 (F := Ideal) x0 x1 x2) := rfl

/-- The first accumulation at (n, k). -/
theorem v43_read (n : Fin 100000) (k : Fin 16) :
    val_main_v43 (F := Ideal) x0 x1 x2 (ix2 n k)
      = 0 + ∑ e : Fin 1700000, if dstOf x1 e = ((n.val : ℕ) : ℤ)
          then rowDot (rowOf x0 (srcOf x1 e)) x2 k * (dinvOf x1 (srcOf x1 e) * dinvOf x1 (dstgOf x1 e)) else 0 := by
  rw [v43_form]
  refine (scatter_weighted (N := 100000) (C := 16) (M := 1700000) (by omega)
    gather_S100000x16_S1700000x1_S1700000x16_1_0_n_n_0_1_116.wf gather_S100000_S1700000x1_S1700000_n_0_n_n_0_1_1.wf
    scatter_S100000x16_S1700000x1_S1700000x16_1_0_0_1.wf
    (val_main_v4 (F := Ideal) x0 x2) (val_main_v15 (F := Ideal) x1)
    (val_main_v36 (F := Ideal) x1) (val_main_v28 (F := Ideal) x1) (val_main_v42 (F := Ideal) x1)
    (val_main_v41 (F := Ideal)) (val_main_v40 (F := Ideal) x0 x1 x2) v41_zero (v40_read x1 x0 x2) n k).trans ?_
  refine congrArg (fun s : EReal => 0 + s) (Finset.sum_congr rfl fun e _ => ?_)
  show (if dstOf x1 e = ((n.val : ℕ) : ℤ)
      then val_main_v4 (F := Ideal) x0 x2 (ix2 (srcOf x1 e) k) * (dinvOf x1 (srcOf x1 e) * dinvOf x1 (dstgOf x1 e)) else 0) = _
  rw [v4_read]

/-- The first bias row, broadcast over the nodes, at (n, k). -/
theorem v45_read (n : Fin 100000) (k : Fin 16) : val_main_v45 (F := Ideal) x3 (ix2 n k) = x3 (ix1 k) := by
  rw [val_main_v45_apply, val_main_v44_apply]
  exact congrArg x3 (funext fun a => Fin.ext (by match a with | ⟨0, _⟩ => rfl))

/-- The first layer is the edge-by-edge layer over the input. -/
theorem layer1_eq :
    val_main_v46 (F := Ideal) x0 x1 x2 x3
      = edgewiseLayer x0 x2 (fun k => x3 (ix1 k)) (dinvOf x1) (srcOf x1) (dstgOf x1) (dstOf x1) := by
  funext i
  obtain ⟨n, k, rfl⟩ : ∃ (n : Fin 100000) (k : Fin 16), i = ix2 n k := ⟨i 0, i 1, eq_ix2 i⟩
  rw [val_main_v46_apply]
  show val_main_v43 (F := Ideal) x0 x1 x2 (ix2 n k) + val_main_v45 (F := Ideal) x3 (ix2 n k) = _
  rw [v43_read, v45_read]
  rfl

/-! ## The rectifier and the second layer -/

/-- The rectified first layer. -/
theorem v47_eq :
    val_main_v47 (F := Ideal) x0 x1 x2 x3
      = fun i => max (edgewiseLayer x0 x2 (fun k => x3 (ix1 k)) (dinvOf x1) (srcOf x1) (dstgOf x1) (dstOf x1) i) z32 := by
  funext i
  rw [val_main_v47_apply, layer1_eq, val_main_call1_v0_apply, val_main_call1_cst_apply]
  rfl

/-- The second product at (m, k) is row m of the rectified first layer times the second matrix, at column k. -/
theorem v48_read (m : Fin 100000) (k : Fin 7) :
    val_main_v48 (F := Ideal) x0 x1 x2 x3 x4 (ix2 m k)
      = rowDot (rowOf (fun i => max (edgewiseLayer x0 x2 (fun k => x3 (ix1 k)) (dinvOf x1) (srcOf x1) (dstgOf x1) (dstOf x1) i) z32) m) x4 k := by
  rw [val_main_v48_apply, v47_eq]
  unfold rowDot rowOf
  refine Finset.sum_congr rfl fun j _ => ?_
  have el : lidx_main_v48 (ix2 m k) j = ix2 m j :=
    funext fun a => Fin.ext (by match a with | ⟨0, _⟩ => rfl | ⟨1, _⟩ => rfl)
  have er : ridx_main_v48 (ix2 m k) j = ix2 j k :=
    funext fun a => Fin.ext (by match a with | ⟨0, _⟩ => rfl | ⟨1, _⟩ => rfl)
  rw [el, er]

/-- The second layer's zero table. -/
theorem v85_zero (i : S100000x7.Idx) : val_main_v85 (F := Ideal) i = 0 := by
  rw [val_main_v85_apply, val_main_cst_19_apply]
  exact Ideal.ofBits_zero_f32

/-- The second layer's weighted message at (e, k), over the first layer's index and factor arrays. -/
theorem v84_read (e : Fin 1700000) (k : Fin 7) :
    val_main_v84 (F := Ideal) x0 x1 x2 x3 x4 (ix2 e k)
      = Host.gather (Cert.Rows.gather2 100000 7 1700000 gather_S100000x7_S1700000x1_S1700000x7_1_0_n_n_0_1_17.wf)
            (val_main_v48 (F := Ideal) x0 x1 x2 x3 x4) (val_main_v36 (F := Ideal) x1) (ix2 e k)
        * (Host.gather (Cert.Rows1.gather1 100000 1700000 gather_S100000_S1700000x1_S1700000_n_0_n_n_0_1_1.wf)
              (val_main_v15 (F := Ideal) x1) (val_main_v36 (F := Ideal) x1) (ix1 e)
          * Host.gather (Cert.Rows1.gather1 100000 1700000 gather_S100000_S1700000x1_S1700000_n_0_n_n_0_1_1.wf)
              (val_main_v15 (F := Ideal) x1) (val_main_v28 (F := Ideal) x1) (ix1 e)) := by
  rw [val_main_v84_apply, val_main_v83_apply, val_main_v82_apply, val_main_v74_apply]
  have hi : idx_main_v82 (idx_main_v83 (ix2 e k)) = ix1 e :=
    funext fun a => Fin.ext (by match a with | ⟨0, _⟩ => rfl)
  rw [hi]
  show Host.gather gather_S100000x7_S1700000x1_S1700000x7_1_0_n_n_0_1_17 (val_main_v48 (F := Ideal) x0 x1 x2 x3 x4)
        (val_main_v80 (F := Ideal) x1) (ix2 e k)
      * (Host.gather gather_S100000_S1700000x1_S1700000_n_0_n_n_0_1_1 (val_main_v59 (F := Ideal) x1) (val_main_v65 (F := Ideal) x1) (ix1 e)
        * Host.gather gather_S100000_S1700000x1_S1700000_n_0_n_n_0_1_1 (val_main_v59 (F := Ideal) x1) (val_main_v72 (F := Ideal) x1) (ix1 e)) = _
  rw [v80_eq, v59_eq, v65_eq, v72_eq]
  rfl

/-- The second accumulation is the accumulating scatter of the weighted messages into the zero table. -/
theorem v87_form :
    val_main_v87 (F := Ideal) x0 x1 x2 x3 x4
      = Ideal.hostScatterAdd (Cert.Rows.scatter2 100000 7 1700000 scatter_S100000x7_S1700000x1_S1700000x7_1_0_0_1.wf)
          (val_main_v85 (F := Ideal)) (val_main_v86 (F := Ideal) x1) (val_main_v84 (F := Ideal) x0 x1 x2 x3 x4) := rfl

/-- The second accumulation at (n, k). -/
theorem v87_read (n : Fin 100000) (k : Fin 7) :
    val_main_v87 (F := Ideal) x0 x1 x2 x3 x4 (ix2 n k)
      = 0 + ∑ e : Fin 1700000, if dstOf x1 e = ((n.val : ℕ) : ℤ)
          then rowDot (rowOf (fun i => max (edgewiseLayer x0 x2 (fun k => x3 (ix1 k)) (dinvOf x1) (srcOf x1) (dstgOf x1) (dstOf x1) i) z32)
                (srcOf x1 e)) x4 k * (dinvOf x1 (srcOf x1 e) * dinvOf x1 (dstgOf x1 e)) else 0 := by
  rw [v87_form, v86_eq]
  refine (scatter_weighted (N := 100000) (C := 7) (M := 1700000) (by omega)
    gather_S100000x7_S1700000x1_S1700000x7_1_0_n_n_0_1_17.wf gather_S100000_S1700000x1_S1700000_n_0_n_n_0_1_1.wf
    scatter_S100000x7_S1700000x1_S1700000x7_1_0_0_1.wf
    (val_main_v48 (F := Ideal) x0 x1 x2 x3 x4) (val_main_v15 (F := Ideal) x1)
    (val_main_v36 (F := Ideal) x1) (val_main_v28 (F := Ideal) x1) (val_main_v42 (F := Ideal) x1)
    (val_main_v85 (F := Ideal)) (val_main_v84 (F := Ideal) x0 x1 x2 x3 x4) v85_zero (v84_read x1 x0 x2 x3 x4) n k).trans ?_
  refine congrArg (fun s : EReal => 0 + s) (Finset.sum_congr rfl fun e _ => ?_)
  show (if dstOf x1 e = ((n.val : ℕ) : ℤ)
      then val_main_v48 (F := Ideal) x0 x1 x2 x3 x4 (ix2 (srcOf x1 e) k) * (dinvOf x1 (srcOf x1 e) * dinvOf x1 (dstgOf x1 e)) else 0) = _
  rw [v48_read]

/-- The second bias row, broadcast over the nodes, at (n, k). -/
theorem v89_read (n : Fin 100000) (k : Fin 7) : val_main_v89 (F := Ideal) x5 (ix2 n k) = x5 (ix1 k) := by
  rw [val_main_v89_apply, val_main_v88_apply]
  exact congrArg x5 (funext fun a => Fin.ext (by match a with | ⟨0, _⟩ => rfl))

/-! ## The result -/

/-- The reference's result is the two layers edge by edge over its own edge list and per-node factor. -/
theorem result_eq (x0 : (⟨S100000x512, .f32⟩ : BufTy).Contents (Elt Ideal)) (x1 : (⟨S2x1600000, .i32⟩ : BufTy).Contents (Elt Ideal)) (x2 : (⟨S512x16, .f32⟩ : BufTy).Contents (Elt Ideal)) (x3 : (⟨S16, .f32⟩ : BufTy).Contents (Elt Ideal)) (x4 : (⟨S16x7, .f32⟩ : BufTy).Contents (Elt Ideal)) (x5 : (⟨S7, .f32⟩ : BufTy).Contents (Elt Ideal)) :
    Cert.ReferenceIdeal.ReadP.val_main_v90 (F := Ideal) x0 x1 x2 x3 x4 x5
      = Cert.Gcn.edgewise x0 x2 (fun k => x3 (ix1 k)) x4 (fun k => x5 (ix1 k))
          (Cert.ReferenceIdeal.RefValue.dinvOf x1) (Cert.ReferenceIdeal.RefValue.srcOf x1) (Cert.ReferenceIdeal.RefValue.dstgOf x1) (Cert.ReferenceIdeal.RefValue.dstOf x1) := by
  funext i
  obtain ⟨n, k, rfl⟩ : ∃ (n : Fin 100000) (k : Fin 7), i = ix2 n k := ⟨i 0, i 1, eq_ix2 i⟩
  rw [val_main_v90_apply]
  show val_main_v87 (F := Ideal) x0 x1 x2 x3 x4 (ix2 n k) + val_main_v89 (F := Ideal) x5 (ix2 n k) = _
  rw [v87_read, v89_read]
  rfl

end Cert.ReferenceIdeal.RefRead

end
-- ==== Proof.RefFacts.lean ====
/-
  Two facts about the reference's edge list.

  The per-node factor is a nonnegative real:  the count of the edges that land on a node is a finite sum of ones, hence
  a nonnegative real, and the guarded inverse square root of a nonnegative real is again one (zero at zero,  1 / √r  at a
  positive r).

  An edge whose destination word, read signed, names the node n reads its destination factor at row n:  such a word is
  not negative, so the wrap-around of negative words leaves it alone, and it is below the number of nodes, so the clamp
  leaves it alone too.
-/
import proofs.«148080_j80625126080586_2_alg».proof.Proof.RefReadP
import proofs.«148080_j80625126080586_2_alg».proof.Proof.RefDefs
import proofs.«148080_j80625126080586_2_alg».proof.Proof.LibGcn
import proofs.«148080_j80625126080586_2_alg».proof.Proof.LibRows1
import proofs.«148080_j80625126080586_2_alg».proof.Proof.LibNormSum
import Idealize.ShloMosaic.Lib.IdealHost
import Idealize.ShloMosaic.Lib.ValueIdx
import Idealize.ShloMosaic.PureOps.Ideal.Laws

noncomputable section

open scoped BigOperators

namespace Cert.ReferenceIdeal.RefFacts

open Cert.ReferenceIdeal Cert.ReferenceIdeal.ReadP Cert.ReferenceIdeal.RefValue Idealize.ShloMosaic
  Idealize.ShloMosaic.ValueIdx

/-! ## The per-node factor -/

/-- On the extended reals the host's accumulating scatter is the exact one. -/
theorem hostScatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The degree count's dimension numbers are those of an entry-indexed accumulation into a vector. -/
theorem dims_eq : scatter_S100000_S1700000x1_S1700000_n_0_0_1
    = Cert.Rows1.scatter1 100000 1700000 scatter_S100000_S1700000x1_S1700000_n_0_0_1.wf := rfl

/-- The number of edges that land on node n: the accumulation, from zero, of a one for every edge whose destination
    word, read signed, is n. -/
theorem deg_apply (x1 : (⟨S2x1600000, .i32⟩ : BufTy).Contents (Elt Ideal)) (n : Fin 100000) :
    val_main_v11 (F := Ideal) x1 (ix1 n)
      = 0 + ∑ e : Fin 1700000,
          if (val_main_v10 (F := Ideal) x1 (ix2 e (0 : Fin 1))).toInt = ((n.val : ℕ) : ℤ) then (1 : EReal) else 0 := by
  have h9 : val_main_v9 (F := Ideal) (ix1 n) = (0 : EReal) := by
    rw [val_main_v9_apply, val_main_cst_0_apply]
    exact Ideal.ofBits_zero_f32
  have h8 : ∀ e : Fin 1700000, val_main_v8 (F := Ideal) (ix1 e) = (1 : EReal) := by
    intro e
    rw [val_main_v8_apply, val_main_cst_apply]
    exact Ideal.ofBits_one_f32
  have hs : val_main_v11 (F := Ideal) x1 (ix1 n)
      = Ideal.hostScatterAdd (Cert.Rows1.scatter1 100000 1700000 scatter_S100000_S1700000x1_S1700000_n_0_0_1.wf)
          (val_main_v9 (F := Ideal)) (val_main_v10 (F := Ideal) x1) (val_main_v8 (F := Ideal)) (ix1 n) := by
    unfold val_main_v11
    rw [hostScatterAdd_ideal]
    exact congrArg (fun D => Ideal.hostScatterAdd D (val_main_v9 (F := Ideal)) (val_main_v10 (F := Ideal) x1)
      (val_main_v8 (F := Ideal)) (ix1 n)) dims_eq
  rw [hs]
  refine (Cert.Rows1.scatterAdd1_apply scatter_S100000_S1700000x1_S1700000_n_0_0_1.wf
    (val_main_v9 (F := Ideal)) (val_main_v10 (F := Ideal) x1) (val_main_v8 (F := Ideal)) n).trans ?_
  rw [h9]
  refine congrArg (fun s : EReal => (0 : EReal) + s) (Finset.sum_congr rfl fun e _ => ?_)
  rw [h8 e]

/-- The per-node factor is a nonnegative real. -/
theorem dinv_nonneg_real (x1 : (⟨S2x1600000, .i32⟩ : BufTy).Contents (Elt Ideal)) (n : Fin 100000) :
    ∃ r : ℝ, 0 ≤ r ∧ Cert.ReferenceIdeal.RefValue.dinvOf x1 n = (r : EReal) := by
  obtain ⟨r, hr0, hr⟩ := Cert.NormSum.count_nonneg_real (M := 1700000)
    (fun e => (val_main_v10 (F := Ideal) x1 (ix2 e (0 : Fin 1))).toInt = ((n.val : ℕ) : ℤ))
  obtain ⟨r', hr'0, hr'⟩ := Cert.NormSum.guarded_rsqrt_nonneg_real r hr0
  refine ⟨r', hr'0, ?_⟩
  have hdeg : val_main_v11 (F := Ideal) x1 (ix1 n) = (r : EReal) := (deg_apply x1 n).trans hr
  have h12 : val_main_v12 (F := Ideal) (ix1 n) = (0 : EReal) := by
    rw [val_main_v12_apply, val_main_cst_1_apply]
    exact Ideal.ofBits_zero_f32
  have hz : val_main_call0_v1 (F := Ideal) (ix1 n) = (0 : EReal) := by
    rw [val_main_call0_v1_apply, val_main_call0_v0_apply, val_main_cst_2_apply]
    exact Ideal.ofBits_zero_f32
  show val_main_v15 (F := Ideal) x1 (ix1 n) = _
  rw [val_main_v15_apply, val_main_v13_apply, val_main_v14_apply, hdeg, h12, hz, Ideal.cmpf_def,
    Ideal.hostUnary_rsqrt_def]
  exact hr'

/-! ## The destination row -/

/-- A word that reads signed as a node number is not negative: the wrap-around of negative words returns it. -/
theorem clamp_of_toInt (w : BitVec 32) (n : Fin 100000) (h : w.toInt = ((n.val : ℕ) : ℤ)) :
    Scalar.select (IntOp.cmpi .slt w 0#32) (IntOp.addi w 100000#32) w = w := by
  have h0 : IntOp.cmpi .slt w 0#32 = 0#1 := by
    show BitVec.ofBool (decide (w.toInt < (0#32).toInt)) = 0#1
    rw [h, decide_eq_false (by rw [BitVec.toInt_zero]; omega)]
    rfl
  rw [h0, select_zero]

/-- A word that reads signed as a node number is in range: the clamp returns the node number. -/
theorem min_of_toInt (w : BitVec 32) (n : Fin 100000) (h : w.toInt = ((n.val : ℕ) : ℤ)) :
    min w.toInt.toNat (100000 - 1) = n.val := by
  rw [h, Int.toNat_natCast]
  have := n.isLt
  omega

/-- An edge accumulated at node n reads its destination factor at row n. -/
theorem dstg_of_dst (x1 : (⟨S2x1600000, .i32⟩ : BufTy).Contents (Elt Ideal)) (e : Fin 1700000) (n : Fin 100000) :
    Cert.ReferenceIdeal.RefValue.dstOf x1 e = ((n.val : ℕ) : ℤ) → Cert.ReferenceIdeal.RefValue.dstgOf x1 e = n := by
  intro h
  have hi42 : idx_main_v42 (ix2 e (0 : Fin 1)) = ix1 e := by
    funext a; match a with | ⟨0, _⟩ => rfl
  have hi28 : idx_main_v28 (ix2 e (0 : Fin 1)) = ix1 e := by
    funext a; match a with | ⟨0, _⟩ => rfl
  have hw : (val_main_v7 (F := Ideal) x1 (ix1 e)).toInt = ((n.val : ℕ) : ℤ) := by
    rw [← h]
    show _ = (val_main_v42 (F := Ideal) x1 (ix2 e (0 : Fin 1))).toInt
    rw [val_main_v42_apply, hi42]
  have hcol : val_main_v28 (F := Ideal) x1 (ix2 e (0 : Fin 1)) = val_main_v7 (F := Ideal) x1 (ix1 e) := by
    rw [val_main_v28_apply, hi28, val_main_v27_apply, val_main_v24_apply, val_main_v26_apply, val_main_v23_apply,
      val_main_c_4_apply, val_main_v25_apply, val_main_c_5_apply]
    exact clamp_of_toInt _ n hw
  refine Fin.ext ?_
  show min (val_main_v28 (F := Ideal) x1 (ix2 e (0 : Fin 1))).toInt.toNat (100000 - 1) = n.val
  rw [hcol]
  exact min_of_toInt _ n hw

end Cert.ReferenceIdeal.RefFacts

end
-- ==== Proof.lean ====
/-
  Two graph-convolution layers on a TPU against their jnp reference: the kernel's result equals the reference's on
  the extended reals.

  Both programs build the same edge list from the given 1,600,000 edges and one loop per node, count the edges that
  land on each node and take the guarded inverse square root d of the count.  The reference weights the message of every
  edge by  d(source) · d(destination)  before it accumulates the messages at their destinations.  The kernel scales the
  transformed rows by  d  inside its first matrix-product kernel, lets the host send and accumulate the scaled rows,
  and scales the sums by  d  again inside the next kernel (where it also adds the bias, rectifies and applies the second
  matrix), and once more in the last kernel.  The two are equal because  d(n)  is a nonnegative real, which distributes
  over any finite sum of extended reals, and because every edge that lands on node n looks its destination factor up
  at n itself.  No finiteness of the inputs is used.

  The three frames are the generated ones (the reference's is its run with the result dropped); the idealization
  rewrote nothing, so there is nothing to preserve.
-/
import proofs.«148080_j80625126080586_2_alg».proof.Defs
import proofs.«148080_j80625126080586_2_alg».proof.Proof.Gen.Kernel
import proofs.«148080_j80625126080586_2_alg».proof.Proof.Gen.Kernel.Frame
import proofs.«148080_j80625126080586_2_alg».proof.Proof.Gen.KernelIdeal
import proofs.«148080_j80625126080586_2_alg».proof.Proof.Gen.KernelIdeal.Frame
import proofs.«148080_j80625126080586_2_alg».proof.Proof.Gen.ReferenceIdeal
import proofs.«148080_j80625126080586_2_alg».proof.Proof.Gen.Pre_finite_inputs
import proofs.«148080_j80625126080586_2_alg».proof.Proof.LibGcn
import proofs.«148080_j80625126080586_2_alg».proof.Proof.KRun
import proofs.«148080_j80625126080586_2_alg».proof.Proof.KRegions
import proofs.«148080_j80625126080586_2_alg».proof.Proof.KHost
import proofs.«148080_j80625126080586_2_alg».proof.Proof.RefRunP
import proofs.«148080_j80625126080586_2_alg».proof.Proof.RefReadP
import proofs.«148080_j80625126080586_2_alg».proof.Proof.RefDefs
import proofs.«148080_j80625126080586_2_alg».proof.Proof.RefValue
import proofs.«148080_j80625126080586_2_alg».proof.Proof.RefFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the two layers with the weight applied edge by edge, of the same arguments. -/
theorem algebraic : Cert.algebraic_KernelIdeal_ReferenceIdeal := by
  intro m ρ m' ρ' _ hagree
  refine ⟨fun c => Cert.Gcn.edgewise (N := 100000) (K := 512) (C := 16) (D := 7) (M := 1700000)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (fun k => m ((c.tc : Thread Cert.KernelIdeal.nD Cert.KernelIdeal.τ).loc Cert.KernelIdeal.main_arg3) (ix1 k))
      (m ((c.tc : Thread Cert.KernelIdeal.nD Cert.KernelIdeal.τ).loc Cert.KernelIdeal.main_arg4))
      (fun k => m ((c.tc : Thread Cert.KernelIdeal.nD Cert.KernelIdeal.τ).loc Cert.KernelIdeal.main_arg5) (ix1 k))
      (Cert.ReferenceIdeal.RefValue.dinvOf (m ((c.tc : Thread Cert.KernelIdeal.nD Cert.KernelIdeal.τ).loc Cert.KernelIdeal.main_arg1)))
      (Cert.ReferenceIdeal.RefValue.srcOf (m ((c.tc : Thread Cert.KernelIdeal.nD Cert.KernelIdeal.τ).loc Cert.KernelIdeal.main_arg1)))
      (Cert.ReferenceIdeal.RefValue.dstgOf (m ((c.tc : Thread Cert.KernelIdeal.nD Cert.KernelIdeal.τ).loc Cert.KernelIdeal.main_arg1)))
      (Cert.ReferenceIdeal.RefValue.dstOf (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩)
      (Cert.KernelIdeal.Whole.run (F := Ideal) m ρ)
    rw [Cert.KernelIdeal.HostValue.kernel_value m ρ c Cert.KernelIdeal.RegionValue.final0
      Cert.KernelIdeal.RegionValue.final1 Cert.KernelIdeal.RegionValue.final2]
    exact Cert.Gcn.nodewise_eq_edgewise _ _ _ _ _ _ _ _ _ _ _ _
      (Cert.KernelIdeal.HostValue.b0row_apply _) (Cert.KernelIdeal.HostValue.b1row_apply _)
      (Cert.KernelIdeal.HostValue.dcol_apply _)
      (Cert.ReferenceIdeal.RefFacts.dinv_nonneg_real _) (Cert.ReferenceIdeal.RefFacts.dstg_of_dst _)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v90_eq, Cert.ReferenceIdeal.RefRead.result_eq,
      (hagree c).1, (hagree c).2.1, (hagree c).2.2.1, (hagree c).2.2.2.1, (hagree c).2.2.2.2.1, (hagree c).2.2.2.2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
